-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1048576 : Shape := ⟨2, ![64, 1048576]⟩
abbrev S_ : Shape := ⟨0, ![]⟩

class Facts : Prop where
  bcast_S_S64x1048576 : S_.BroadcastsInDim S64x1048576 (![] : Fin 0 → Fin S64x1048576.rank)
  reducesTo_S64x1048576_S_d0_1 : S64x1048576.ReducesTo [0, 1] S_
  h_S_ : 0 < S_.numel

variable [Facts]

def fn {F : FTy → Type} [FloatOps F] (main_arg0 : FVec F S64x1048576 .f32) : IVec S_ 1 :=
  let main_v0 : FVec F S64x1048576 .f32 := Host.absf main_arg0
  let main_cst : FVec F S_ .f32 := constant S_ .f32 0x7F800000#32
  let main_v1 : FVec F S64x1048576 .f32 := broadcastInDim S64x1048576 ![] bcast_S_S64x1048576 main_cst
  let main_v2 : IVec S64x1048576 1 := cmpf .olt main_v0 main_v1
  let main_c : IVec S_ 1 := constantI S_ 1 1#1
  let main_v3 : IVec S_ 1 := (fun x v => Host.reduce IntOp.andi x v reducesTo_S64x1048576_S_d0_1 h_S_) main_v2 main_c
  main_v3
-- ==== Kernel.lean ====
abbrev S64x1048576 : Shape := ⟨2, ![64, 1048576]⟩
abbrev S2x64x64 : Shape := ⟨3, ![2, 64, 64]⟩
abbrev S2x64x1 : Shape := ⟨3, ![2, 64, 1]⟩
abbrev S64x65536 : Shape := ⟨2, ![64, 65536]⟩
abbrev S1x64x64 : Shape := ⟨3, ![1, 64, 64]⟩
abbrev S1x64x1 : Shape := ⟨3, ![1, 64, 1]⟩
abbrev S64x64 : Shape := ⟨2, ![64, 64]⟩
abbrev S64x1 : Shape := ⟨2, ![64, 1]⟩
abbrev S64x8192 : Shape := ⟨2, ![64, 8192]⟩
abbrev S64 : Shape := ⟨1, ![64]⟩
abbrev S_ : Shape := ⟨0, ![]⟩
abbrev S1x64 : Shape := ⟨2, ![1, 64]⟩

abbrev nBuf : Space → Nat
  | .hbm => 31
  | .vmem => 6
  | .smem => 0
  | _ => 0

abbrev bufTy : (tb : Table) → Fin (tcTables nBuf tb) → BufTy
  | .hbm, ⟨0, _⟩ => ⟨S64x1048576, .f32⟩
  | .hbm, ⟨1, _⟩ => ⟨S2x64x64, .f32⟩
  | .hbm, ⟨2, _⟩ => ⟨S2x64x1, .f32⟩
  | .hbm, ⟨3, _⟩ => ⟨S_, .f32⟩
  | .hbm, ⟨4, _⟩ => ⟨S64x64, .f32⟩
  | .hbm, ⟨5, _⟩ => ⟨S_, .f32⟩
  | .hbm, ⟨6, _⟩ => ⟨S64x1, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S1x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64, .i32⟩
  | .hbm, ⟨17, _⟩ => ⟨S64x1, .i32⟩
  | .hbm, ⟨18, _⟩ => ⟨S64, .i32⟩
  | .hbm, ⟨19, _⟩ => ⟨S1x64, .i32⟩
  | .hbm, ⟨20, _⟩ => ⟨S64x64, .i32⟩
  | .hbm, ⟨21, _⟩ => ⟨S64x64, .i32⟩
  | .hbm, ⟨22, _⟩ => ⟨S64x64, .i1⟩
  | .hbm, ⟨23, _⟩ => ⟨S_, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S64x65536, .f32⟩
  | .local _ .vmem, ⟨1, _⟩ => ⟨S64x65536, .f32⟩
  | .local _ .vmem, ⟨2, _⟩ => ⟨S1x64x64, .f32⟩
  | .local _ .vmem, ⟨3, _⟩ => ⟨S1x64x64, .f32⟩
  | .local _ .vmem, ⟨4, _⟩ => ⟨S1x64x1, .f32⟩
  | .local _ .vmem, ⟨5, _⟩ => ⟨S1x64x1, .f32⟩
  | _, _ => ⟨S64x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_2 : BitVec 32 := 0#32
  let c8_i32 : BitVec 32 := 8#32
  let v5 : BitVec 32 := Scalar.addi c0_i32_2 c8_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg5 : BitVec 32 := Scf.iv c0_i32_2 c1_i32 k0_t1
  let c8192_i32 : BitVec 32 := 8192#32
  let v19 : BitVec 32 := Scalar.muli arg5 c8192_i32
  v19
def k0_off1 (k0_t1 : Fin k0_t1_loop.trips) : Fin 2 → Nat :=
  let c0_15 : Index := 0#32
  let c0_i32_2 : BitVec 32 := 0#32
  let c1_i32 : BitVec 32 := 1#32
  let arg5 : BitVec 32 := Scf.iv c0_i32_2 c1_i32 k0_t1
  let c8192_i32 : BitVec 32 := 8192#32
  let v19 : BitVec 32 := Scalar.muli arg5 c8192_i32
  let v20 : BitVec 32 := v19
  let v21 : Index := Scalar.indexCast v20
  ![0, v21.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  h_S64x8192 : 0 < S64x8192.numel
  reduces_S64x8192_S64 : S64x8192.Reduces [1] S64
  shapeCasts_S64_S64x1 : S64.ShapeCasts S64x1
  bitsLt_bf16_f32 : FTy.bits .bf16 < FTy.bits .f32
  reducesTo_S2x64x64_S64x64_d0 : S2x64x64.ReducesTo [0] S64x64
  h_S_ : 0 < S_.numel
  reducesTo_S2x64x1_S64x1_d0 : S2x64x1.ReducesTo [0] S64x1
  bcast_S_S64x1 : S_.BroadcastsInDim S64x1 (![] : Fin 0 → Fin S64x1.rank)
  transposes_S64x1_S1x64_1_0 : S64x1.Transposes [1, 0] S1x64
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S_S64x64 : S_.BroadcastsInDim S64x64 (![] : Fin 0 → Fin S64x64.rank)
  reducesTo_S64x64_S_d0_1 : S64x64.ReducesTo [0, 1] S_
  dot_S64x8192_S64x8192_S64x64_1_1_0_0_n_n_wf : DotDims.WF S64x8192 S64x8192 S64x64 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x8192.size a ≤ S64x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x65536.size a ≤ S64x1048576.size a
  hwx0_0 : ∀ i : grid0.Coords, EltTy.bits .f32 = 32 ∨ (Rect.block (s := S64x1048576) S64x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S2x64x64.size a
  hwx0_1 : ∀ i : grid0.Coords, EltTy.bits .f32 = 32 ∨ (Rect.block (s := S2x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S2x64x1.size a
  hwx0_2 : ∀ i : grid0.Coords, EltTy.bits .f32 = 32 ∨ (Rect.block (s := S2x64x1) S1x64x1.size (cc0_transform_2 i) (hinb0_2 i)).WholeWords (EltTy.packing .f32)

variable [Facts₀]

def dot_S64x8192_S64x8192_S64x64_1_1_0_0_n_n : DotDims S64x8192 S64x8192 S64x64 where
  lhsContracting := [1]
  rhsContracting := [1]
  lhsNonContracting := [0]
  rhsNonContracting := [0]
  lhsBatch := []
  rhsBatch := []
  wf := dot_S64x8192_S64x8192_S64x64_1_1_0_0_n_n_wf

abbrev win0_0 : Pipeline.Window sig grid0 :=
  Pipeline.Window.ofSpec (Memref.whole main_arg0) S64x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x64x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1048576 : Shape := ⟨2, ![64, 1048576]⟩
abbrev S_ : Shape := ⟨0, ![]⟩
abbrev S64 : Shape := ⟨1, ![64]⟩
abbrev S64x1 : Shape := ⟨2, ![64, 1]⟩
abbrev S1048576x64 : Shape := ⟨2, ![1048576, 64]⟩
abbrev S64x64 : Shape := ⟨2, ![64, 64]⟩

abbrev nBuf : Space → Nat
  | .hbm => 26
  | .vmem => 0
  | .smem => 0
  | _ => 0

abbrev bufTy : (tb : Table) → Fin (tcTables nBuf tb) → BufTy
  | .hbm, ⟨0, _⟩ => ⟨S64x1048576, .f32⟩
  | .hbm, ⟨1, _⟩ => ⟨S64x1048576, .f32⟩
  | .hbm, ⟨2, _⟩ => ⟨S_, .f32⟩
  | .hbm, ⟨3, _⟩ => ⟨S64, .f32⟩
  | .hbm, ⟨4, _⟩ => ⟨S64x1, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S64x1048576, .f32⟩
  | .hbm, ⟨10, _⟩ => ⟨S64x1048576, .f32⟩
  | .hbm, ⟨11, _⟩ => ⟨S1048576x64, .f32⟩
  | .hbm, ⟨12, _⟩ => ⟨S64x64, .f32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S64x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  reducesTo_S64x1048576_S64_d1 : S64x1048576.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1048576_0_1 : S64x1.BroadcastsInDim S64x1048576 (![0, 1] : Fin 2 → Fin S64x1048576.rank)
  transposes_S64x1048576_S1048576x64_1_0 : S64x1048576.Transposes [1, 0] S1048576x64
  bcast_S_S64x64 : S_.BroadcastsInDim S64x64 (![] : Fin 0 → Fin S64x64.rank)
  reducesTo_S64x64_S_d0_1 : S64x64.ReducesTo [0, 1] S_
  dot_S64x1048576_S1048576x64_S64x64_1_0_0_1_n_n_wf : DotDims.WF S64x1048576 S1048576x64 S64x64 [1] [0] [0] [1] [] []

variable [Facts₀]

def dot_S64x1048576_S1048576x64_S64x64_1_0_0_1_n_n : DotDims S64x1048576 S1048576x64 S64x64 where
  lhsContracting := [1]
  rhsContracting := [0]
  lhsNonContracting := [0]
  rhsNonContracting := [1]
  lhsBatch := []
  rhsBatch := []
  wf := dot_S64x1048576_S1048576x64_S64x64_1_0_0_1_n_n_wf

class Facts : Prop extends Facts₀ where

variable [Facts]
-- ==== Proof.Spec.lean ====
/-
  The mean pairwise cosine of the 64 rows of a 64 × 1048576 matrix, as functions of the matrix over the
  extended reals. Two arrangements of one cosine: the quotient of the raw inner product by the product of
  the two clamped norms, and the inner product of the two rows each divided by its clamped norm. The row
  norm is clamped from below by a small positive constant, so it is a positive real whenever every entry
  is real, and then the two arrangements agree (the quotient distributes over a sum of reals).
  The inner product is also cut the way a streaming pass visits the columns: two halves, each of eight
  tiles of 65536 columns, each tile of eight chunks of 8192 columns.
-/
import Idealize.ShloMosaic.PureOps.Ideal
import Idealize.ShloMosaic.PureOps.Ideal.Laws
import Idealize.ShloMosaic.Lib.ValueIdx

noncomputable section

namespace PairCos

open Idealize.ShloMosaic

/-- The matrix: 64 rows, 1048576 columns, entries extended reals. -/
abbrev Mat := (⟨2, ![64, 1048576]⟩ : Shape).Idx → EReal

/-- The three constants: zero, the clamp of a norm, and the number of unordered pairs of rows (2016). -/
def zero : EReal := Ideal.ofBits .f32 0x00000000#32
def eps : EReal := Ideal.ofBits .f32 0x322BCC77#32
def cnt : EReal := Ideal.ofBits .f32 0x44FC0000#32

/-- Entry (p, n). -/
def ent (X : Mat) (p : Fin 64) (n : Fin 1048576) : EReal := X (ValueIdx.ix2 p n)

/-- The inner product of rows p and q. -/
def dot (X : Mat) (p q : Fin 64) : EReal := ∑ n : Fin 1048576, ent X p n * ent X q n

/-- The clamped norm of row p: the larger of the root of its sum of squares and the clamp. -/
def norm (X : Mat) (p : Fin 64) : EReal := max (Ideal.sqrt (zero + dot X p p)) eps

/-- The cosine as inner product over the product of the norms. -/
def cosQ (X : Mat) (p q : Fin 64) : EReal := Ideal.div (zero + dot X p q) (norm X p * norm X q)

/-- The cosine as the inner product of the two normalized rows. -/
def cosN (X : Mat) (p q : Fin 64) : EReal :=
  ∑ n : Fin 1048576, Ideal.div (ent X p n) (norm X p) * Ideal.div (ent X q n) (norm X q)

/-- The mean over the pairs p < q of a 64 × 64 table: the strictly upper triangle summed, over the count. -/
def loss (C : Fin 64 → Fin 64 → EReal) : EReal :=
  Ideal.div (zero + ∑ p : Fin 64, ∑ q : Fin 64, if p.val < q.val then C p q else zero) cnt

/-- Entry (p, n) for any natural n, zero past the last column. -/
def entN (X : Mat) (p : Fin 64) (n : ℕ) : EReal := if h : n < 1048576 then ent X p ⟨n, h⟩ else 0

/-- The column that lane l of chunk k of tile t is. -/
def col (t k l : ℕ) : ℕ := 65536 * t + 8192 * k + l

/-- One chunk's share of the inner product of rows p and q: 8192 columns. -/
def chunk (X : Mat) (p q : Fin 64) (t k : ℕ) : EReal :=
  ∑ l : Fin 8192, entN X p (col t k l.val) * entN X q (col t k l.val)

/-- One tile's share: its eight chunks. -/
def tile (X : Mat) (p q : Fin 64) (t : ℕ) : EReal := ∑ k ∈ Finset.range 8, chunk X p q t k

/-- One half's share: its eight tiles. -/
def half (X : Mat) (p q : Fin 64) (b : ℕ) : EReal := ∑ j ∈ Finset.range 8, tile X p q (8 * b + j)

end PairCos

end
-- ==== Proof.RefSide.lean ====
/-
  The reference side of the mean pairwise cosine: what the reference program computes, as the functions of
  Spec, and what the precondition on the input gives.

  The value. Row p's sum of squares, from zero, is zero + dot X p p; its root, clamped from below, is the
  norm of row p; each entry is divided by its row's norm; the product of the normalized matrix with its own
  transpose has entry (p, q) equal to the inner product of the normalized rows p and q, which is cosN X p q.
  The table is then masked: an entry on or below the diagonal (column ≤ row) is replaced by zero, one strictly
  above it (row < column) is kept. All 64 × 64 masked entries are summed from zero, and the total is divided
  by the number of pairs. That is loss (cosN X).

  The precondition. It states, for every entry, that the larger of the entry and its negation is strictly
  below +∞. Neither infinity satisfies that (the larger of ±∞ and ∓∞ is +∞), so every entry is a real.
-/
import proofs.«160796_j42460046688731_2_alg».proof.Proof.Spec
import proofs.«160796_j42460046688731_2_alg».proof.Proof.Gen.ReferenceIdeal.Read
import proofs.«160796_j42460046688731_2_alg».proof.Proof.Gen.Pre_finite_inputs
import Idealize.ShloMosaic.Lib.ValueIdx
import Idealize.ShloMosaic.Lib.Pipeline.Value
import Idealize.ShloMosaic.PureOps.Ideal.Laws
import Idealize.ShloMosaic.Lib.ReduceAll

noncomputable section

open Idealize.ShloMosaic

namespace PairCos.Ref

/-! ## Every entry is a real -/

/-- The scalar shape has one index. -/
instance : Subsingleton Cert.Pre_finite_inputs.S_.Idx := ⟨fun a b => funext fun d => d.elim0⟩

/-- The word the precondition compares against denotes +∞. -/
theorem inf_bits : Ideal.ofBits .f32 0x7F800000#32 = (⊤ : EReal) := by
  simp [Ideal.ofBits, Ideal.ieee]

/-- Under the precondition every entry of the matrix is a real: the conjunction over all entries of
    "max x (-x) < +∞" holds, so it holds at each entry, and it fails at both infinities. -/
theorem entries_real [Cert.Pre_finite_inputs.Facts] (x : FVec Ideal Cert.Pre_finite_inputs.S64x1048576 .f32)
    (h : Cert.Pre_finite_inputs.fn (F := Ideal) x = fun _ => 1#1) : ∀ i, ∃ r : ℝ, x i = (r : EReal) := by
  intro i
  have h0 := congrFun h ValueIdx.ix0
  dsimp only [Cert.Pre_finite_inputs.fn] at h0
  have hi := Host.reduce_andi_all _ _ _ _ _ h0 i
  have hi' : BitVec.ofBool (decide (max (x i) (-(x i)) < (⊤ : EReal))) = 1#1 := by
    rw [← inf_bits]; exact hi
  induction hx : x i using EReal.rec with
  | bot => rw [hx] at hi'; simp at hi'
  | top => rw [hx] at hi'; simp at hi'
  | coe r => exact ⟨r, rfl⟩

/-! ## The reference program's value -/

open Cert.ReferenceIdeal Cert.ReferenceIdeal.Read

/-- The mask's bit at row r, column c: set exactly when the column is at most the row. -/
theorem mask_bit : ∀ r c : Fin 64,
    IntOp.cmpi .sge (IntOp.addi (BitVec.ofNat 32 r.val) 0#32) (BitVec.ofNat 32 c.val)
      = if r.val < c.val then 0#1 else 1#1 := by
  decide +kernel

/-- The clamped root of row p's sum of squares is the norm of row p. -/
theorem norm_at (x0 : (⟨Cert.ReferenceIdeal.S64x1048576, .f32⟩ : BufTy).Contents (Elt Ideal)) (p : Fin 64) :
    val_main_v5 (F := Ideal) x0 (ValueIdx.ix2 p (0 : Fin 1)) = PairCos.norm x0 p := by
  have e2 : idx_main_v2 (ValueIdx.ix2 p (0 : Fin 1)) = ValueIdx.ix1 p :=
    funext fun a => Fin.ext (by match a with | ⟨0, _⟩ => rfl)
  have e1 : ∀ k : Fin 1048576, idx_main_v1 (ValueIdx.ix1 p) k = ValueIdx.ix2 p k := fun k =>
    funext fun a => Fin.ext (by match a with | ⟨0, _⟩ => rfl | ⟨1, _⟩ => rfl)
  rw [val_main_v5_apply, val_main_v3_apply, val_main_v2_apply, e2, val_main_v1_apply, val_main_cst_apply,
    val_main_v4_apply, val_main_cst_0_apply]
  simp only [e1, val_main_v0_apply, Ideal.hostUnary_sqrt_def, Ideal.maximumf_def, Ideal.mulf_def, Ideal.ofBits_def]
  rfl

/-- Entry (p, k) of the normalized matrix is the entry over its row's norm. -/
theorem unit_at (x0 : (⟨Cert.ReferenceIdeal.S64x1048576, .f32⟩ : BufTy).Contents (Elt Ideal)) (p : Fin 64)
    (k : Fin 1048576) :
    val_main_v7 (F := Ideal) x0 (ValueIdx.ix2 p k) = Ideal.div (PairCos.ent x0 p k) (PairCos.norm x0 p) := by
  have e6 : idx_main_v6 (ValueIdx.ix2 p k) = ValueIdx.ix2 p (0 : Fin 1) :=
    funext fun a => Fin.ext (by match a with | ⟨0, _⟩ => rfl | ⟨1, _⟩ => rfl)
  rw [val_main_v7_apply, val_main_v6_apply, e6, norm_at, Ideal.hostDivf_def]
  rfl

/-- Entry (p, q) of the product of the normalized matrix with its transpose is the cosine of rows p and q. -/
theorem cos_at (x0 : (⟨Cert.ReferenceIdeal.S64x1048576, .f32⟩ : BufTy).Contents (Elt Ideal)) (p q : Fin 64) :
    val_main_v9 (F := Ideal) x0 (ValueIdx.ix2 p q) = PairCos.cosN x0 p q := by
  rw [val_main_v9_apply]
  unfold PairCos.cosN
  refine Finset.sum_congr rfl fun k _ => ?_
  have el : lidx_main_v9 (ValueIdx.ix2 p q) k = ValueIdx.ix2 p k :=
    funext fun a => Fin.ext (by match a with | ⟨0, _⟩ => rfl | ⟨1, _⟩ => rfl)
  have er : idx_main_v8 (ridx_main_v9 (ValueIdx.ix2 p q) k) = ValueIdx.ix2 q k :=
    funext fun a => Fin.ext (by match a with | ⟨0, _⟩ => rfl | ⟨1, _⟩ => rfl)
  rw [val_main_v8_apply, el, er, unit_at, unit_at]

/-- The masked table: the cosine strictly above the diagonal, zero on and below it. -/
theorem tri_at (x0 : (⟨Cert.ReferenceIdeal.S64x1048576, .f32⟩ : BufTy).Contents (Elt Ideal)) (p q : Fin 64) :
    val_main_v10 (F := Ideal) x0 (ValueIdx.ix2 p q)
      = if p.val < q.val then PairCos.cosN x0 p q else PairCos.zero := by
  rw [val_main_v10_apply, val_main_call0_v4_apply, val_main_call0_v2_apply, val_main_call0_v0_apply,
    val_main_call0_v1_apply, val_main_call0_c_apply, val_main_call0_v3_apply, val_main_call0_v5_apply,
    val_main_call0_cst_apply, cos_at]
  show Scalar.select (IntOp.cmpi .sge (IntOp.addi (BitVec.ofNat 32 p.val) 0#32) (BitVec.ofNat 32 q.val)) _ _ = _
  rw [mask_bit p q]
  by_cases hlt : p.val < q.val
  · rw [if_pos hlt, if_pos hlt, ValueIdx.select_zero]
  · rw [if_neg hlt, if_neg hlt, ValueIdx.select_one]; rfl

/-- The reference program returns the mean over the pairs p < q of the cosines of the normalized rows. -/
theorem ref_value (x0 : (⟨Cert.ReferenceIdeal.S64x1048576, .f32⟩ : BufTy).Contents (Elt Ideal)) :
    Cert.ReferenceIdeal.Read.val_main_v12 (F := Ideal) x0 = fun _ => PairCos.loss (PairCos.cosN x0) := by
  funext i
  rw [val_main_v12_apply, val_main_v11_apply, val_main_cst_1_apply, val_main_cst_2_apply, ValueIdx.sum_idx2]
  simp only [tri_at, Ideal.hostDivf_def, Ideal.ofBits_def]
  rfl

end PairCos.Ref

end
-- ==== Proof.RefRun.lean ====
/-
  The reference program's run, in the terms of Spec, and the precondition read at the kernel's argument.

  The reference's run terminates on every device with its result buffer at the composed term of its 25
  operations applied to the argument's launch contents, and the argument unchanged. That composed term is the
  last stage of the reference read one operation at a time, and that stage is the constant function at
  loss (cosN X), X the argument (RefSide). So the run ends with the result at loss (cosN X) and X unchanged;
  dropping the result gives the frame statement.

  The precondition of the kernel says, on every device, that the finiteness predicate of the argument is all
  ones; by RefSide every entry of the argument is then a real.
-/
import proofs.«160796_j42460046688731_2_alg».proof.Defs
import proofs.«160796_j42460046688731_2_alg».proof.Proof.RefSide
import proofs.«160796_j42460046688731_2_alg».proof.Proof.Gen.ReferenceIdeal
import proofs.«160796_j42460046688731_2_alg».proof.Proof.Gen.ReferenceIdeal.Run
import proofs.«160796_j42460046688731_2_alg».proof.Proof.Gen.ReferenceIdeal.Read
import proofs.«160796_j42460046688731_2_alg».proof.Proof.Gen.KernelIdeal
import proofs.«160796_j42460046688731_2_alg».proof.Proof.Gen.Pre_finite_inputs
import Idealize.ShloMosaic.Adequacy
import Idealize.ShloMosaic.Init

noncomputable section

namespace PairCos.RefRun

open Idealize.ShloMosaic Idealize.ShloMosaic.TcCoe Idealize.SL.Sem

/-- The reference runs and leaves its argument unchanged: the second half of its run's post. -/
theorem frame_ref : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The reference runs, ends with its result at the mean pairwise cosine of the normalized rows of its
    argument, and leaves the argument unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread _ Cert.ReferenceIdeal.τ).loc Cert.ReferenceIdeal.main_v12)
            = (fun _ => PairCos.loss (PairCos.cosN (m' ((c.tc : Thread _ Cert.ReferenceIdeal.τ).loc Cert.ReferenceIdeal.main_arg0))))
          ∧ r.2.mem ((c.tc : Thread _ Cert.ReferenceIdeal.τ).loc Cert.ReferenceIdeal.main_arg0)
            = m' ((c.tc : Thread _ Cert.ReferenceIdeal.τ).loc Cert.ReferenceIdeal.main_arg0)) :=
  (θ_run Cert.ReferenceIdeal.defs _ _).mono
    (fun _ h c => ⟨(h c).1.trans ((Cert.ReferenceIdeal.Read.val_main_v12_eq _).trans (PairCos.Ref.ref_value _)), (h c).2⟩)
    (Cert.ReferenceIdeal.Value.run (F := Ideal) m' ρ')

/-- Under the kernel's precondition every entry of its argument is a real, on every device. -/
theorem finite_kernel (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread _ Cert.KernelIdeal.τ).loc Cert.KernelIdeal.main_arg0) i = (r : EReal) :=
  PairCos.Ref.entries_real _ (h c)

end PairCos.RefRun

end
-- ==== Proof.Body.lean ====
import proofs.«160796_j42460046688731_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

/-!
  One run of the kernel body, as values. A run of the body at a grid point streams the point's 64 × 65536 block
  in eight chunks of 8192 columns; each trip adds the chunk's Gram matrix to a 64 × 64 accumulator and the chunk's
  row sums of squares to a 64 × 1 accumulator, both starting from zero. After the loop the two accumulators are
  added into the two output blocks, which hold zero at the first point of each half and otherwise what the point
  before left.
-/

namespace PairCos.Body

open Cert.KernelIdeal Cert.KernelIdeal.Gen

variable {F : FTy → Type} [FloatOps F]

theorem hz3 : (![0, 0, 0] : Fin 3 → Nat) = fun _ => 0 := funext fun a => by fin_cases a <;> rfl

/-- Chunk `k` of a block: its columns 8192·k … 8192·k + 8191, as the loop's load reads them. -/
def chunkOf (a2 : Memref sig .tc .vmem S64x65536 .f32) (h2 : a2.IsWhole) (x : Vec F S64x65536 .f32)
    (k : Fin k0_t1_loop.trips) : Vec F S64x8192 .f32 :=
  View.readAt (Elt F) a2.view (Rect.unit (s := S64x65536) (k0_off1 k) S64x8192.size (k0_off1_inb k)).toLoadRect (h2.unread x)

/-- One trip: the Gram accumulator gains the chunk's Gram matrix, the other its row sums of squares. -/
theorem trip_val (𝒱 : Variants) (c : Dev nD) (bd : Option 𝒱.V) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (x : Vec F S64x65536 .f32) (k : Fin k0_t1_loop.trips)
    (acc : FVec F S64x64 .f32 × FVec F S64x1 .f32) :
    (trip_k0_t1 (F := F) 𝒱 c bd i a2 h2 a3 h3 a4 h4 (h2.unread x) k).1 acc
      = (k0_pay6 acc.1 (chunkOf a2 h2 x k), k0_pay5 acc.2 (chunkOf a2 h2 x k)) := by
  unfold trip_k0_t1 chunkOf
  rfl

/-- The accumulators before trip `n`, from zero. -/
abbrev accAt (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (x : Vec F S64x65536 .f32) (n : ℕ) :
    FVec F S64x64 .f32 × FVec F S64x1 .f32 :=
  st_k0_t1 (F := F) Variants.none c none i a2 h2 a3 h3 a4 h4 (h2.unread x) (k0_pay3, k0_pay4) n

/-- The loop runs eight trips. -/
theorem trips_eq : Scf.trips (0#32) (Scalar.addi 0#32 8#32) 1#32 = 8 := by decide

/-- The accumulators' step: trip `k` applied to the accumulators before it. -/
theorem accAt_succ (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (x : Vec F S64x65536 .f32) (k : Fin k0_t1_loop.trips) :
    accAt c i a2 h2 a3 h3 a4 h4 x (k.val + 1)
      = (k0_pay6 (accAt c i a2 h2 a3 h3 a4 h4 x k.val).1 (chunkOf a2 h2 x k),
         k0_pay5 (accAt c i a2 h2 a3 h3 a4 h4 x k.val).2 (chunkOf a2 h2 x k)) := by
  unfold accAt
  rw [st_k0_t1_succ]
  exact trip_val _ c _ i a2 h2 a3 h3 a4 h4 x k _

/-- A point that is not the first of its half leaves, in the Gram output block holding `xo1`, `xo1` plus the
    block's Gram matrix. -/
theorem out_B1 (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (hc : ¬cond0_0 i)
    (x : Vec F S64x65536 .f32) (xo1 : Vec F S1x64x64 .f32) (xo2 : Vec F S1x64x1 .f32) :
    out0_B_1 c i a2 h2 a3 h3 a4 h4 hc x xo1 xo2 = k0_pay7 (accAt c i a2 h2 a3 h3 a4 h4 x 8).1 xo1 := by
  unfold out0_B_1
  rw [View.read_writes_eq_canon _ _ _ (cover0_B_1 c i a2 h2 a3 h3 a4 h4 hc x xo1 xo2)]
  unfold kernelRun0_B
  dsimp only
  rw [View.canon_unit_zero hz3]
  simp only [View.readAt_eq_ld, h3.read_unread, View.ld_unit_zero (S := S1x64x64) hz3, trips_eq]

/-- The same for the sums-of-squares output block. -/
theorem out_B2 (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (hc : ¬cond0_0 i)
    (x : Vec F S64x65536 .f32) (xo1 : Vec F S1x64x64 .f32) (xo2 : Vec F S1x64x1 .f32) :
    out0_B_2 c i a2 h2 a3 h3 a4 h4 hc x xo1 xo2 = k0_pay8 (accAt c i a2 h2 a3 h3 a4 h4 x 8).2 xo2 := by
  unfold out0_B_2
  rw [View.read_writes_eq_canon _ _ _ (cover0_B_2 c i a2 h2 a3 h3 a4 h4 hc x xo1 xo2)]
  unfold kernelRun0_B
  dsimp only
  rw [View.canon_unit_zero hz3]
  simp only [View.readAt_eq_ld, h4.read_unread, View.ld_unit_zero (S := S1x64x1) hz3, trips_eq]

/-- The first point of a half stores the zero block, reads it back, and leaves zero plus the block's Gram matrix. -/
theorem out_A1 (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (hc : cond0_0 i) (x : Vec F S64x65536 .f32) :
    out0_A_1 c i a2 h2 a3 h3 a4 h4 hc x = k0_pay7 (accAt c i a2 h2 a3 h3 a4 h4 x 8).1 k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S1x64x64) hz3, View.readCov_unit_zero (S := S1x64x64) _ hz3]
  simp only [trips_eq]

/-- The same for the sums-of-squares output block. -/
theorem out_A2 (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (hc : cond0_0 i) (x : Vec F S64x65536 .f32) :
    out0_A_2 c i a2 h2 a3 h3 a4 h4 hc x = k0_pay8 (accAt c i a2 h2 a3 h3 a4 h4 x 8).2 k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S1x64x1) hz3, View.readCov_unit_zero (S := S1x64x1) _ hz3]
  simp only [trips_eq]

end PairCos.Body

end
-- ==== Proof.Pay.lean ====
import proofs.«160796_j42460046688731_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

/-!
  The body's arithmetic read entry by entry over the extended reals: a chunk's Gram matrix at (p, q) is the sum over the
  chunk's 8192 columns of the products of rows p and q; its row sum of squares at p is the same sum with q = p; the zero
  blocks are zero; the two final additions add entry by entry (the casts between a 64 × 64 block and a 1 × 64 × 64
  block keep every entry in place).
-/

namespace PairCos.Pay

open Cert.KernelIdeal Cert.KernelIdeal.Gen ValueIdx

abbrev DD := dot_S64x8192_S64x8192_S64x64_1_1_0_0_n_n

theorem pay1_apply (j : S1x64x64.Idx) : k0_pay1 (F := Ideal) j = 0 := by
  show Ideal.ofBits .f32 0x00000000#32 = 0
  exact Ideal.ofBits_zero_f32

theorem pay2_apply (j : S1x64x1.Idx) : k0_pay2 (F := Ideal) j = 0 := by
  show Ideal.ofBits .f32 0x00000000#32 = 0
  exact Ideal.ofBits_zero_f32

theorem pay3_apply (j : S64x64.Idx) : k0_pay3 (F := Ideal) j = 0 := by
  show Ideal.ofBits .f32 0x00000000#32 = 0
  exact Ideal.ofBits_zero_f32

theorem pay4_apply (j : S64x1.Idx) : k0_pay4 (F := Ideal) j = 0 := by
  show Ideal.ofBits .f32 0x00000000#32 = 0
  exact Ideal.ofBits_zero_f32

theorem lhs0 (i : S64x64.Idx) (q : DD.contr.Idx) : (DD.lhsIdx i q 0).val = (i 0).val := by
  unfold DotDims.lhsIdx
  rw [dif_neg (show ¬(0 : Fin S64x8192.rank) ∈ DD.lhsBatch by decide), dif_pos (show (0 : Fin S64x8192.rank) ∈ DD.lhsNonContracting by decide)]
  rfl
theorem lhs1 (i : S64x64.Idx) (q : DD.contr.Idx) : (DD.lhsIdx i q 1).val = (q ⟨0, by decide⟩).val :=
  DD.lhsIdx_val_of_single rfl i q
theorem rhs0 (i : S64x64.Idx) (q : DD.contr.Idx) : (DD.rhsIdx i q 0).val = (i 1).val := by
  unfold DotDims.rhsIdx
  rw [dif_neg (show ¬(0 : Fin S64x8192.rank) ∈ DD.rhsBatch by decide), dif_pos (show (0 : Fin S64x8192.rank) ∈ DD.rhsNonContracting by decide)]
  rfl
theorem rhs1 (i : S64x64.Idx) (q : DD.contr.Idx) : (DD.rhsIdx i q 1).val = (q ⟨0, by decide⟩).val :=
  DD.rhsIdx_val_of_single rfl i q

/-- The Gram accumulator after a chunk, at (p, q): what it held plus the sum over the chunk's columns of the products
    of rows p and q (the change of format before the product is the identity on extended reals). -/
theorem pay6_apply (acc : FVec Ideal S64x64 .f32) (v : Vec Ideal S64x8192 .f32) (p q : Fin 64) :
    k0_pay6 acc v (ix2 p q) = acc (ix2 p q) + ∑ l : Fin 8192, v (ix2 p l) * v (ix2 q l) := by
  unfold k0_pay6
  show acc (ix2 p q) + FloatOps.matmul DD none (truncf .bf16 v bitsLt_bf16_f32) (truncf .bf16 v bitsLt_bf16_f32)
    (constant S64x64 .f32 0x00000000#32) (ix2 p q) = _
  refine congrArg (acc (ix2 p q) + ·) ?_
  refine (Ideal.matmul_constant_zero_apply DD none _ _ (ix2 p q)).trans ?_
  rw [← Equiv.sum_comp (ValueIdx.contrEquiv1 DD 8192 rfl rfl).symm]
  refine Finset.sum_congr rfl fun l _ => ?_
  have hk := ValueIdx.contrEquiv1_symm_val DD 8192 rfl rfl l
  have el : DD.lhsIdx (ix2 p q) ((ValueIdx.contrEquiv1 DD 8192 rfl rfl).symm l) = ix2 p l := funext fun a => Fin.ext (by
    match a with
    | ⟨0, _⟩ => exact lhs0 _ _
    | ⟨1, _⟩ => exact (lhs1 _ _).trans hk)
  have er : DD.rhsIdx (ix2 p q) ((ValueIdx.contrEquiv1 DD 8192 rfl rfl).symm l) = ix2 q l := funext fun a => Fin.ext (by
    match a with
    | ⟨0, _⟩ => exact rhs0 _ _
    | ⟨1, _⟩ => exact (rhs1 _ _).trans hk)
  rw [el, er]
  rfl

/-- The sums-of-squares accumulator after a chunk, at row p: what it held plus the sum of the squares of row p over
    the chunk's columns. -/
theorem pay5_apply (acc : FVec Ideal S64x1 .f32) (v : Vec Ideal S64x8192 .f32) (p : Fin 64) (u : Fin 1) :
    k0_pay5 acc v (ix2 p u) = acc (ix2 p u) + ∑ l : Fin 8192, v (ix2 p l) * v (ix2 p l) := by
  unfold k0_pay5
  show acc (ix2 p u) + shapeCast S64x1 (multiReduction .add [1] S64 (mulf v v) 0x00000000#32 reduces_S64x8192_S64 (.inl rfl) rfl)
    shapeCasts_S64_S64x1 (ix2 p u) = _
  refine congrArg (acc (ix2 p u) + ·) ?_
  refine (shapeCast_apply _ shapeCasts_S64_S64x1 (ix2 p u) (ix1 p) (by
    have hu : u.val = 0 := by omega
    rw [Shape.rowMajor_val_two, Shape.rowMajor_val_one]
    show p.val = p.val * 1 + u.val
    rw [hu, Nat.mul_one, Nat.add_zero])).trans ?_
  refine (Ideal.multiReduction_add_single (mulf v v) 0x00000000#32 reduces_S64x8192_S64 (.inl rfl) rfl (ix1 p)).trans ?_
  refine Finset.sum_congr rfl fun l _ => ?_
  have e : reduces_S64x8192_S64.lift (ix1 p) l = ix2 p l := funext fun a => Fin.ext (by
    match a with
    | ⟨0, _⟩ => rfl
    | ⟨1, _⟩ => rfl)
  rw [e]
  rfl

/-- The Gram output block after the final addition, at (0, p, q): what the block held plus the accumulator. -/
theorem pay7_apply (a : FVec Ideal S64x64 .f32) (v : Vec Ideal S1x64x64 .f32) (u : Fin 1) (p q : Fin 64) :
    k0_pay7 a v (ix3 u p q) = v (ix3 (0 : Fin 1) p q) + a (ix2 p q) := by
  unfold k0_pay7
  refine (ValueIdx.shapeCast_ab_1ab_apply _ shapeCasts_S64x64_S1x64x64 u p q).trans ?_
  show shapeCast S64x64 v shapeCasts_S1x64x64_S64x64 (ix2 p q) + a (ix2 p q) = _
  exact congrArg (· + a (ix2 p q)) (ValueIdx.shapeCast_1ab_ab_apply v shapeCasts_S1x64x64_S64x64 p q)

/-- The sums-of-squares output block after the final addition, at (0, p, 0). -/
theorem pay8_apply (a : FVec Ideal S64x1 .f32) (v : Vec Ideal S1x64x1 .f32) (u : Fin 1) (p : Fin 64) (w : Fin 1) :
    k0_pay8 a v (ix3 u p w) = v (ix3 (0 : Fin 1) p w) + a (ix2 p w) := by
  unfold k0_pay8
  refine (ValueIdx.shapeCast_ab_1ab_apply _ shapeCasts_S64x1_S1x64x1 u p w).trans ?_
  show shapeCast S64x1 v shapeCasts_S1x64x1_S64x1 (ix2 p w) + a (ix2 p w) = _
  exact congrArg (· + a (ix2 p w)) (ValueIdx.shapeCast_1ab_ab_apply v shapeCasts_S1x64x1_S64x1 p w)

end PairCos.Pay

end
-- ==== Proof.Acc.lean ====
import proofs.«160796_j42460046688731_2_alg».proof.Proof.Body
import proofs.«160796_j42460046688731_2_alg».proof.Proof.Pay
import proofs.«160796_j42460046688731_2_alg».proof.Proof.Spec

set_option maxRecDepth 16384

noncomputable section

open Idealize.ShloMosaic Idealize.ShloMosaic.TcCoe Idealize.SL.Sem
open Idealize.ShloMosaic.Pipeline (Dat)

/-!
  One grid point's contribution, entry by entry over the extended reals. The eight trips of the loop add the eight
  chunks' sums, so after the loop the Gram accumulator at (p, q) is the sum over the block's 65536 columns, chunk by
  chunk, of the products of rows p and q, and the other accumulator at p the same with q = p. A point that is first
  in its half leaves exactly that in the output blocks; any other point adds it to what the blocks held.
-/

namespace PairCos.Acc

open Cert.KernelIdeal Cert.KernelIdeal.Gen ValueIdx PairCos.Body

/-- Entry (p, n) of a 64 × 65536 block, zero past its last column. -/
def bent (x : Vec Ideal S64x65536 .f32) (p : Fin 64) (n : ℕ) : EReal := if h : n < 65536 then x (ix2 p ⟨n, h⟩) else 0

/-- Chunk `k`'s share of the inner product of rows p and q of a block. -/
def bchunk (x : Vec Ideal S64x65536 .f32) (p q : Fin 64) (k : ℕ) : EReal :=
  ∑ l : Fin 8192, bent x p (8192 * k + l.val) * bent x q (8192 * k + l.val)

/-- The block's share: its eight chunks. -/
def btile (x : Vec Ideal S64x65536 .f32) (p q : Fin 64) : EReal := ∑ k ∈ Finset.range 8, bchunk x p q k

theorem trips8 : k0_t1_loop.trips = 8 := by decide

/-- The loop's load of chunk `k` reads columns 8192·k + l of the block. -/
theorem chunk_apply (a2 : Memref sig .tc .vmem S64x65536 .f32) (h2 : a2.IsWhole) (x : Vec Ideal S64x65536 .f32)
    (k : Fin k0_t1_loop.trips) (p : Fin 64) (l : Fin 8192) :
    chunkOf (F := Ideal) a2 h2 x k (ix2 p l) = bent x p (8192 * k.val + l.val) := by
  have hk : k.val < 8 := lt_of_lt_of_eq k.isLt trips8
  have hl := l.isLt
  have hlt : 8192 * k.val + l.val < 65536 := by omega
  unfold chunkOf bent
  rw [dif_pos hlt]
  simp only [View.readAt_eq_ld, h2.read_unread]
  show x ((Rect.unit (s := S64x65536) (k0_off1 k) S64x8192.size (k0_off1_inb k)).emb (ix2 p l)) = _
  refine congrArg x (funext fun a => Fin.ext ?_)
  have h0 : k0_off1 k 0 = 0 := by rw [k0_off1_eq k]; rfl
  have h1 : k0_off1 k 1 = 8192 * k.val := by rw [k0_off1_eq k]; rfl
  match a with
  | ⟨0, _⟩ => show k0_off1 k 0 + 1 * p.val = p.val; rw [h0]; omega
  | ⟨1, _⟩ => show k0_off1 k 1 + 1 * l.val = 8192 * k.val + l.val; rw [h1]; omega

/-- Before trip `n` the accumulators hold the first `n` chunks' sums. -/
theorem acc_apply (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (x : Vec Ideal S64x65536 .f32) :
    ∀ n : ℕ, n ≤ 8 → (∀ p q : Fin 64, (accAt (F := Ideal) c i a2 h2 a3 h3 a4 h4 x n).1 (ix2 p q) = ∑ k ∈ Finset.range n, bchunk x p q k)
      ∧ (∀ (p : Fin 64) (u : Fin 1), (accAt (F := Ideal) c i a2 h2 a3 h3 a4 h4 x n).2 (ix2 p u) = ∑ k ∈ Finset.range n, bchunk x p p k)
  | 0, _ =>
    ⟨fun p q => (PairCos.Pay.pay3_apply (ix2 p q)).trans (by rw [Finset.range_zero, Finset.sum_empty]),
     fun p u => (PairCos.Pay.pay4_apply (ix2 p u)).trans (by rw [Finset.range_zero, Finset.sum_empty])⟩
  | n + 1, hn => by
    have ih := acc_apply c i a2 h2 a3 h3 a4 h4 x n (by omega)
    have hlt : n < k0_t1_loop.trips := by rw [trips8]; omega
    have hs := accAt_succ (F := Ideal) c i a2 h2 a3 h3 a4 h4 x ⟨n, hlt⟩
    refine ⟨fun p q => ?_, fun p u => ?_⟩
    · rw [show n + 1 = (⟨n, hlt⟩ : Fin k0_t1_loop.trips).val + 1 from rfl, hs]
      refine (PairCos.Pay.pay6_apply _ _ p q).trans ?_
      rw [Finset.sum_range_succ]
      refine congrArg₂ (· + ·) (ih.1 p q) (Finset.sum_congr rfl fun l _ => ?_)
      rw [chunk_apply, chunk_apply]
    · rw [show n + 1 = (⟨n, hlt⟩ : Fin k0_t1_loop.trips).val + 1 from rfl, hs]
      refine (PairCos.Pay.pay5_apply _ _ p u).trans ?_
      rw [Finset.sum_range_succ]
      refine congrArg₂ (· + ·) (ih.2 p u) (Finset.sum_congr rfl fun l _ => ?_)
      rw [chunk_apply]

/-- A point that is not first in its half adds the block's share to the Gram output block. -/
theorem outB1_apply (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (hc : ¬cond0_0 i)
    (x : Vec Ideal S64x65536 .f32) (xo1 : Vec Ideal S1x64x64 .f32) (xo2 : Vec Ideal S1x64x1 .f32) (u : Fin 1) (p q : Fin 64) :
    out0_B_1 (F := Ideal) c i a2 h2 a3 h3 a4 h4 hc x xo1 xo2 (ix3 u p q) = xo1 (ix3 (0 : Fin 1) p q) + btile x p q := by
  rw [out_B1]
  refine (PairCos.Pay.pay7_apply _ _ u p q).trans ?_
  exact congrArg (xo1 (ix3 (0 : Fin 1) p q) + ·) ((acc_apply c i a2 h2 a3 h3 a4 h4 x 8 le_rfl).1 p q)

theorem outB2_apply (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (hc : ¬cond0_0 i)
    (x : Vec Ideal S64x65536 .f32) (xo1 : Vec Ideal S1x64x64 .f32) (xo2 : Vec Ideal S1x64x1 .f32) (u : Fin 1) (p : Fin 64) (w : Fin 1) :
    out0_B_2 (F := Ideal) c i a2 h2 a3 h3 a4 h4 hc x xo1 xo2 (ix3 u p w) = xo2 (ix3 (0 : Fin 1) p w) + btile x p p := by
  rw [out_B2]
  refine (PairCos.Pay.pay8_apply _ _ u p w).trans ?_
  exact congrArg (xo2 (ix3 (0 : Fin 1) p w) + ·) ((acc_apply c i a2 h2 a3 h3 a4 h4 x 8 le_rfl).2 p w)

/-- The first point of a half leaves the block's share alone (zero plus it). -/
theorem outA1_apply (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (hc : cond0_0 i)
    (x : Vec Ideal S64x65536 .f32) (u : Fin 1) (p q : Fin 64) :
    out0_A_1 (F := Ideal) c i a2 h2 a3 h3 a4 h4 hc x (ix3 u p q) = btile x p q := by
  rw [out_A1]
  refine (PairCos.Pay.pay7_apply _ _ u p q).trans ?_
  rw [PairCos.Pay.pay1_apply, zero_add]
  exact (acc_apply c i a2 h2 a3 h3 a4 h4 x 8 le_rfl).1 p q

theorem outA2_apply (c : Dev nD) (i : grid0.Coords)
    (a2 : Memref sig .tc .vmem S64x65536 .f32) (h2 : a2.IsWhole) (a3 : Memref sig .tc .vmem S1x64x64 .f32) (h3 : a3.IsWhole)
    (a4 : Memref sig .tc .vmem S1x64x1 .f32) (h4 : a4.IsWhole) (hc : cond0_0 i)
    (x : Vec Ideal S64x65536 .f32) (u : Fin 1) (p : Fin 64) (w : Fin 1) :
    out0_A_2 (F := Ideal) c i a2 h2 a3 h3 a4 h4 hc x (ix3 u p w) = btile x p p := by
  rw [out_A2]
  refine (PairCos.Pay.pay8_apply _ _ u p w).trans ?_
  rw [PairCos.Pay.pay2_apply, zero_add]
  exact (acc_apply c i a2 h2 a3 h3 a4 h4 x 8 le_rfl).2 p w

end PairCos.Acc

end
-- ==== Proof.Grid.lean ====
import proofs.«160796_j42460046688731_2_alg».proof.Proof.Acc

set_option maxRecDepth 16384

noncomputable section

open Idealize.ShloMosaic Idealize.ShloMosaic.TcCoe Idealize.SL.Sem
open Idealize.ShloMosaic.Pipeline (Dat)

/-!
  The grid. Point `t` (sixteen of them, eight per half) streams columns 65536·t … 65536·t + 65535 of the matrix, so
  its share of the inner product of rows p and q is tile `t`'s. The output blocks are reset at the first point of a
  half and carried across its eight points, so after point `n` they hold the sum of the tiles from the first point
  of `n`'s half up to `n`; at the last point of a half that is the half's share.
-/

namespace PairCos.Grid

open Cert.KernelIdeal Cert.KernelIdeal.Gen ValueIdx PairCos PairCos.Acc

variable (m : (ℓ : Loc nD τ sig) → Buf (Elt Ideal) ℓ)

/-- The argument array as the matrix. -/
abbrev Xof (c : Dev nD) : Mat := m ((c : Thread nD τ).loc main_arg0)

/-- Where the input window's block sits at point `t`: all rows, column block `t`. -/
theorem idx0 : ∀ t : Fin cfg0.N, win0_0.index t 0 = 0 ∧ win0_0.index t 1 = t.val :=
  (by decide +kernel : ∀ t : Fin grid0.N, win0_0.index t 0 = 0 ∧ win0_0.index t 1 = t.val)

/-- The block's entry (p, y) is the matrix's entry (p, 65536·t + y). -/
theorem iblk_apply (c : Dev nD) (t : Fin cfg0.N) (p : Fin 64) (y : Fin 65536) :
    (iblk m c 0 t : Vec Ideal S64x65536 .f32) (ix2 p y) = entN (Xof m c) p (65536 * t.val + y.val) := by
  have hN : t.val < 16 := lt_of_lt_of_eq t.isLt N_0
  have hy := y.isLt
  have hlt : 65536 * t.val + y.val < 1048576 := by omega
  unfold entN ent
  rw [dif_pos hlt]
  unfold iblk
  rw [View.read_apply]
  show V m c main_arg0 _ = m (c.tc.loc main_arg0) _
  unfold V
  congr 1
  funext a
  apply Fin.ext
  match a with
  | ⟨0, _⟩ => show win0_0.index t 0 * 64 + 1 * p.val = p.val; rw [(idx0 t).1]; omega
  | ⟨1, _⟩ => show win0_0.index t 1 * 65536 + 1 * y.val = 65536 * t.val + y.val; rw [(idx0 t).2]; omega

theorem bent_iblk (c : Dev nD) (t : Fin cfg0.N) (p : Fin 64) (n : ℕ) (hn : n < 65536) :
    bent (iblk m c 0 t) p n = entN (Xof m c) p (65536 * t.val + n) := by
  unfold bent
  rw [dif_pos hn]
  exact iblk_apply m c t p ⟨n, hn⟩

/-- The block's share of an inner product is the tile's. -/
theorem btile_iblk (c : Dev nD) (t : Fin cfg0.N) (p q : Fin 64) :
    btile (iblk m c 0 t) p q = tile (Xof m c) p q t.val := by
  unfold btile tile
  refine Finset.sum_congr rfl fun k hk => ?_
  have hk8 : k < 8 := Finset.mem_range.mp hk
  unfold bchunk chunk col
  refine Finset.sum_congr rfl fun l _ => ?_
  have hl := l.isLt
  rw [bent_iblk m c t p _ (by omega), bent_iblk m c t q _ (by omega), Nat.add_assoc]

/-- The first point of a half leaves its own tile's share in both output blocks. -/
theorem stepA (c : Dev nD) (t : Fin cfg0.N) (h0 : t.val % 8 = 0) (u : Fin 1) (p q : Fin 64) (w : Fin 1) :
    (outsAt0 m c t.val t.isLt).1 (ix3 u p q) = tile (Xof m c) p q t.val
    ∧ (outsAt0 m c t.val t.isLt).2 (ix3 u p w) = tile (Xof m c) p p t.val := by
  rw [outsAt0_A m c t h0]
  dsimp only
  exact ⟨(outA1_apply c (grid0.coords t) (ms0_0 t) (hs0_0 t) (ms0_1 t) (hs0_1 t) (ms0_2 t) (hs0_2 t)
      ((hcond0_0 t).mpr h0) (iblk m c 0 t) u p q).trans (btile_iblk m c t p q),
    (outA2_apply c (grid0.coords t) (ms0_0 t) (hs0_0 t) (ms0_1 t) (hs0_1 t) (ms0_2 t) (hs0_2 t)
      ((hcond0_0 t).mpr h0) (iblk m c 0 t) u p w).trans (btile_iblk m c t p p)⟩

/-- Any other point adds its tile's share to what the point before left. -/
theorem stepB (c : Dev nD) (t : Fin cfg0.N) (h0 : ¬t.val % 8 = 0) (u : Fin 1) (p q : Fin 64) (w : Fin 1) :
    (outsAt0 m c t.val t.isLt).1 (ix3 u p q)
      = (outsAt0 m c (t.val - 1) (Nat.lt_of_le_of_lt (Nat.sub_le _ _) t.isLt)).1 (ix3 (0 : Fin 1) p q) + tile (Xof m c) p q t.val
    ∧ (outsAt0 m c t.val t.isLt).2 (ix3 u p w)
      = (outsAt0 m c (t.val - 1) (Nat.lt_of_le_of_lt (Nat.sub_le _ _) t.isLt)).2 (ix3 (0 : Fin 1) p w) + tile (Xof m c) p p t.val := by
  rw [outsAt0_B m c t h0]
  dsimp only
  exact ⟨(outB1_apply c (grid0.coords t) (ms0_0 t) (hs0_0 t) (ms0_1 t) (hs0_1 t) (ms0_2 t) (hs0_2 t)
      (fun h => h0 ((hcond0_0 t).mp h)) (iblk m c 0 t)
      (outsAt0 m c (t.val - 1) (Nat.lt_of_le_of_lt (Nat.sub_le _ _) t.isLt)).1
      (outsAt0 m c (t.val - 1) (Nat.lt_of_le_of_lt (Nat.sub_le _ _) t.isLt)).2 u p q).trans
        (congrArg (_ + ·) (btile_iblk m c t p q)),
    (outB2_apply c (grid0.coords t) (ms0_0 t) (hs0_0 t) (ms0_1 t) (hs0_1 t) (ms0_2 t) (hs0_2 t)
      (fun h => h0 ((hcond0_0 t).mp h)) (iblk m c 0 t)
      (outsAt0 m c (t.val - 1) (Nat.lt_of_le_of_lt (Nat.sub_le _ _) t.isLt)).1
      (outsAt0 m c (t.val - 1) (Nat.lt_of_le_of_lt (Nat.sub_le _ _) t.isLt)).2 u p w).trans
        (congrArg (_ + ·) (btile_iblk m c t p p))⟩

/-- After point `n` the output blocks hold the tiles of `n`'s half up to `n`, summed. -/
theorem held (c : Dev nD) : ∀ (n : ℕ) (hn : n < cfg0.N) (u : Fin 1) (p q : Fin 64) (w : Fin 1),
    (outsAt0 m c n hn).1 (ix3 u p q) = ∑ j ∈ Finset.range (n % 8 + 1), tile (Xof m c) p q (n - n % 8 + j)
    ∧ (outsAt0 m c n hn).2 (ix3 u p w) = ∑ j ∈ Finset.range (n % 8 + 1), tile (Xof m c) p p (n - n % 8 + j) := by
  intro n
  induction n using Nat.strong_induction_on with
  | _ n IH =>
    intro hn u p q w
    by_cases h0 : n % 8 = 0
    · have eR : ∀ f : ℕ → EReal, ∑ j ∈ Finset.range (n % 8 + 1), f (n - n % 8 + j) = f n := fun f => by
        rw [h0, Finset.sum_range_one]
        rfl
      rw [eR (tile (Xof m c) p q), eR (tile (Xof m c) p p)]
      exact stepA m c ⟨n, hn⟩ h0 u p q w
    · have hpos : 1 ≤ n := Nat.one_le_iff_ne_zero.mpr fun h => h0 (by rw [h])
      have hn' : n - 1 < cfg0.N := Nat.lt_of_le_of_lt (Nat.sub_le _ _) hn
      have ih := IH (n - 1) (by omega) hn' (0 : Fin 1) p q w
      have e1 : (n - 1) % 8 + 1 = n % 8 := by omega
      have e2 : n - 1 - (n - 1) % 8 = n - n % 8 := by omega
      have e3 : n - n % 8 + n % 8 = n := by omega
      rw [e1, e2] at ih
      have hs := stepB m c ⟨n, hn⟩ h0 u p q w
      rw [Finset.sum_range_succ, Finset.sum_range_succ, e3]
      exact ⟨hs.1.trans (congrArg (· + tile (Xof m c) p q n) ih.1), hs.2.trans (congrArg (· + tile (Xof m c) p p n) ih.2)⟩

/-- At the last point of a half the Gram output block holds the half's share of every inner product. -/
theorem held_last1 (c : Dev nD) (t : Fin cfg0.N) (ht : t.val % 8 = 7) (u : Fin 1) (p q : Fin 64) :
    (outsAt0 m c t.val t.isLt).1 (ix3 u p q) = half (Xof m c) p q (t.val / 8) := by
  refine ((held m c t.val t.isLt u p q 0).1).trans ?_
  rw [ht, show t.val - 7 = 8 * (t.val / 8) from by omega]
  rfl

/-- And the other output block the half's share of every row's sum of squares. -/
theorem held_last2 (c : Dev nD) (t : Fin cfg0.N) (ht : t.val % 8 = 7) (u : Fin 1) (p : Fin 64) (w : Fin 1) :
    (outsAt0 m c t.val t.isLt).2 (ix3 u p w) = half (Xof m c) p p (t.val / 8) := by
  refine ((held m c t.val t.isLt u p p w).2).trans ?_
  rw [ht, show t.val - 7 = 8 * (t.val / 8) from by omega]
  rfl

end PairCos.Grid

end
-- ==== Proof.Blocks.lean ====
/-
  From the blocks to the arrays. The streaming pass visits sixteen points t = 8 b + k (b the half, k the
  tile within the half). Each of its two results is an array of two blocks, one per half: block b of the
  first result is the 64 × 64 table of half b of the inner products, block b of the second is the 64 × 1
  column of half b of the squared norms. A block stays resident over the eight points of its half and is
  written back once, at the half's last point (t mod 8 = 7), to position b = t / 8 of its array. Given what
  the resident blocks hold at those two points, each array as a whole is the function of the matrix that
  the two blocks restrict: the two written blocks are disjoint and together fill the array.
-/
import proofs.«160796_j42460046688731_2_alg».proof.Proof.Spec
import proofs.«160796_j42460046688731_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace PairCos.Blocks

open Cert.KernelIdeal Cert.KernelIdeal.Gen Idealize.ShloMosaic Idealize.ShloMosaic.TcCoe Idealize.SL.Sem
open Idealize.ShloMosaic.Pipeline (Dat)

/-- Half b of the inner products, as the [2, 64, 64] array. -/
def G1 (X : Mat) : (⟨3, ![2, 64, 64]⟩ : Shape).Idx → EReal :=
  fun i => half X ⟨(i 1).val, (i 1).isLt⟩ ⟨(i 2).val, (i 2).isLt⟩ (i 0).val

/-- Half b of the squared norms, as the [2, 64, 1] array. -/
def G2 (X : Mat) : (⟨3, ![2, 64, 1]⟩ : Shape).Idx → EReal :=
  fun i => half X ⟨(i 1).val, (i 1).isLt⟩ ⟨(i 1).val, (i 1).isLt⟩ (i 0).val

theorem G1_ix3 (X : Mat) (b : Fin 2) (p q : Fin 64) : G1 X (ValueIdx.ix3 b p q) = half X p q b.val := rfl

theorem G2_ix3 (X : Mat) (b : Fin 2) (p : Fin 64) (w : Fin 1) :
    G2 X (ValueIdx.ix3 b p w) = half X p p b.val := rfl

/-- The first array at an index whose coordinates are known. -/
theorem G1_of_coords (X : Mat) (i : (⟨3, ![2, 64, 64]⟩ : Shape).Idx) (b : ℕ) (p q : Fin 64)
    (h0 : (i 0).val = b) (h1 : (i 1).val = p.val) (h2 : (i 2).val = q.val) : G1 X i = half X p q b := by
  have e1 : (⟨(i 1).val, (i 1).isLt⟩ : Fin 64) = p := Fin.ext h1
  have e2 : (⟨(i 2).val, (i 2).isLt⟩ : Fin 64) = q := Fin.ext h2
  show half X ⟨(i 1).val, (i 1).isLt⟩ ⟨(i 2).val, (i 2).isLt⟩ (i 0).val = _
  rw [e1, e2, h0]

/-- The second array at an index whose coordinates are known. -/
theorem G2_of_coords (X : Mat) (i : (⟨3, ![2, 64, 1]⟩ : Shape).Idx) (b : ℕ) (p : Fin 64)
    (h0 : (i 0).val = b) (h1 : (i 1).val = p.val) : G2 X i = half X p p b := by
  have e1 : (⟨(i 1).val, (i 1).isLt⟩ : Fin 64) = p := Fin.ext h1
  show half X ⟨(i 1).val, (i 1).isLt⟩ ⟨(i 1).val, (i 1).isLt⟩ (i 0).val = _
  rw [e1, h0]

/-! ## The first result -/

/-- Where the first result's block sits at each of the sixteen points: position t / 8 along the halves,
    position 0 along the two table axes. -/
theorem pos1 : ∀ t : Fin cfg0.N, win0_1.index t (0 : Fin 3) = t.val / 8
    ∧ win0_1.index t (1 : Fin 3) = 0 ∧ win0_1.index t (2 : Fin 3) = 0 :=
  (by decide +kernel : ∀ t : Fin grid0.N, _)

/-- What a writing point writes back is its block of the array of halves. -/
theorem flushed1_eq (m : (ℓ : Loc nD τ sig) → Buf (Elt Ideal) ℓ) (c : Dev nD) (X : Mat)
    (hinv : ∀ t : Fin cfg0.N, t.val % 8 = 7 → ∀ (u : Fin 1) (p q : Fin 64),
      (outsAt0 m c t.val t.isLt).1 (ValueIdx.ix3 u p q) = half X p q (t.val / 8))
    (t : Fin cfg0.N) (hf : (cfg0.win 1).flush t = true) :
    (dats m 0 c).flushed 1 t = ((cfg0.win 1).blk t).view.read (Elt Ideal) (G1 X) := by
  have h7 : t.val % 8 = 7 := (flush0_1 t).mp hf
  show (cfg0.win 1).cut (grid0.coords t) ((dats m 0 c).after 1 t) = _
  rw [after0_1]
  obtain ⟨e0, e1, e2⟩ := pos1 t
  funext y
  have hy : (outsAt0 m c t.val t.isLt).1 y = half X (y 1) (y 2) (t.val / 8) :=
    (congrArg (outsAt0 m c t.val t.isLt).1 (ValueIdx.eq_ix3 (n0 := 1) (n1 := 64) (n2 := 64) y)).trans
      (hinv t h7 (y 0) (y 1) (y 2))
  show (outsAt0 m c t.val t.isLt).1 y = G1 X (((cfg0.win 1).blk t).view.emb y)
  rw [hy]
  refine (G1_of_coords X _ (t.val / 8) (y 1) (y 2) ?_ ?_ ?_).symm
  · show win0_1.index t (0 : Fin 3) * 1 + 1 * (y 0).val = _
    have hy0 : (y 0).val < 1 := (y 0).isLt
    omega
  · show win0_1.index t (1 : Fin 3) * 64 + 1 * (y 1).val = _
    omega
  · show win0_1.index t (2 : Fin 3) * 64 + 1 * (y 2).val = _
    omega

/-- An index of the first array is in point t's block iff each coordinate is in the block's range. -/
theorem mem_blk1 (t : Fin cfg0.N) (i : S2x64x64.Idx) :
    i ∈ ((cfg0.win 1).blk t).view.set ↔ ∀ a : Fin 3, win0_1.index t a * S1x64x64.size a ≤ (i a).val
      ∧ (i a).val < win0_1.index t a * S1x64x64.size a + S1x64x64.size a := by
  show i ∈ ((View.whole main_v0_0).slice (win0_1.rect t)).set ↔ _
  rw [View.set_slice_whole, Rect.mem_set_unit]
  exact Iff.rfl

/-- Every index of the first array is in the block written at the last point of its half. -/
theorem cover1 (i : S2x64x64.Idx) :
    ∃ t : Fin cfg0.N, (cfg0.win 1).flush t = true ∧ i ∈ ((cfg0.win 1).blk t).view.set := by
  have hN : cfg0.N = 16 := N_0
  have hi0 : (i 0).val < 2 := (i 0).isLt
  have hi1 : (i 1).val < 64 := (i 1).isLt
  have hi2 : (i 2).val < 64 := (i 2).isLt
  have hlt : 8 * (i 0).val + 7 < cfg0.N := by omega
  have ht : (⟨8 * (i 0).val + 7, hlt⟩ : Fin cfg0.N).val = 8 * (i 0).val + 7 := rfl
  obtain ⟨e0, e1, e2⟩ := pos1 ⟨8 * (i 0).val + 7, hlt⟩
  refine ⟨⟨8 * (i 0).val + 7, hlt⟩, (flush0_1 _).mpr (by rw [ht]; omega), ?_⟩
  rw [mem_blk1]
  intro a
  match a with
  | ⟨0, _⟩ =>
    show win0_1.index ⟨8 * (i 0).val + 7, hlt⟩ (0 : Fin 3) * 1 ≤ (i 0).val
      ∧ (i 0).val < win0_1.index ⟨8 * (i 0).val + 7, hlt⟩ (0 : Fin 3) * 1 + 1
    rw [e0, ht]; omega
  | ⟨1, _⟩ =>
    show win0_1.index ⟨8 * (i 0).val + 7, hlt⟩ (1 : Fin 3) * 64 ≤ (i 1).val
      ∧ (i 1).val < win0_1.index ⟨8 * (i 0).val + 7, hlt⟩ (1 : Fin 3) * 64 + 64
    rw [e1]; omega
  | ⟨2, _⟩ =>
    show win0_1.index ⟨8 * (i 0).val + 7, hlt⟩ (2 : Fin 3) * 64 ≤ (i 2).val
      ∧ (i 2).val < win0_1.index ⟨8 * (i 0).val + 7, hlt⟩ (2 : Fin 3) * 64 + 64
    rw [e2]; omega

/-- The first result after the whole pass: the array of the two halves of the inner products. -/
theorem final1 (m : (ℓ : Loc nD τ sig) → Buf (Elt Ideal) ℓ) (c : Dev nD) (X : Mat)
    (hinv : ∀ t : Fin cfg0.N, t.val % 8 = 7 → ∀ (u : Fin 1) (p q : Fin 64),
      (outsAt0 m c t.val t.isLt).1 (ValueIdx.ix3 u p q) = half X p q (t.val / 8)) :
    (dats m 0 c).arrAt 1 cfg0.N = G1 X :=
  (dats m 0 c).arrAt_eq_of_cover 1 (G1 X) (fun t hf => flushed1_eq m c X hinv t hf) cover1

/-! ## The second result -/

/-- Where the second result's block sits at each of the sixteen points: position t / 8 along the halves,
    position 0 along the two column axes. -/
theorem pos2 : ∀ t : Fin cfg0.N, win0_2.index t (0 : Fin 3) = t.val / 8
    ∧ win0_2.index t (1 : Fin 3) = 0 ∧ win0_2.index t (2 : Fin 3) = 0 :=
  (by decide +kernel : ∀ t : Fin grid0.N, _)

/-- What a writing point writes back is its block of the array of halves. -/
theorem flushed2_eq (m : (ℓ : Loc nD τ sig) → Buf (Elt Ideal) ℓ) (c : Dev nD) (X : Mat)
    (hinv : ∀ t : Fin cfg0.N, t.val % 8 = 7 → ∀ (u : Fin 1) (p : Fin 64) (w : Fin 1),
      (outsAt0 m c t.val t.isLt).2 (ValueIdx.ix3 u p w) = half X p p (t.val / 8))
    (t : Fin cfg0.N) (hf : (cfg0.win 2).flush t = true) :
    (dats m 0 c).flushed 2 t = ((cfg0.win 2).blk t).view.read (Elt Ideal) (G2 X) := by
  have h7 : t.val % 8 = 7 := (flush0_2 t).mp hf
  show (cfg0.win 2).cut (grid0.coords t) ((dats m 0 c).after 2 t) = _
  rw [after0_2]
  obtain ⟨e0, e1, e2⟩ := pos2 t
  funext y
  have hy : (outsAt0 m c t.val t.isLt).2 y = half X (y 1) (y 1) (t.val / 8) :=
    (congrArg (outsAt0 m c t.val t.isLt).2 (ValueIdx.eq_ix3 (n0 := 1) (n1 := 64) (n2 := 1) y)).trans
      (hinv t h7 (y 0) (y 1) (y 2))
  show (outsAt0 m c t.val t.isLt).2 y = G2 X (((cfg0.win 2).blk t).view.emb y)
  rw [hy]
  refine (G2_of_coords X _ (t.val / 8) (y 1) ?_ ?_).symm
  · show win0_2.index t (0 : Fin 3) * 1 + 1 * (y 0).val = _
    have hy0 : (y 0).val < 1 := (y 0).isLt
    omega
  · show win0_2.index t (1 : Fin 3) * 64 + 1 * (y 1).val = _
    omega

/-- An index of the second array is in point t's block iff each coordinate is in the block's range. -/
theorem mem_blk2 (t : Fin cfg0.N) (i : S2x64x1.Idx) :
    i ∈ ((cfg0.win 2).blk t).view.set ↔ ∀ a : Fin 3, win0_2.index t a * S1x64x1.size a ≤ (i a).val
      ∧ (i a).val < win0_2.index t a * S1x64x1.size a + S1x64x1.size a := by
  show i ∈ ((View.whole main_v0_1).slice (win0_2.rect t)).set ↔ _
  rw [View.set_slice_whole, Rect.mem_set_unit]
  exact Iff.rfl

/-- Every index of the second array is in the block written at the last point of its half. -/
theorem cover2 (i : S2x64x1.Idx) :
    ∃ t : Fin cfg0.N, (cfg0.win 2).flush t = true ∧ i ∈ ((cfg0.win 2).blk t).view.set := by
  have hN : cfg0.N = 16 := N_0
  have hi0 : (i 0).val < 2 := (i 0).isLt
  have hi1 : (i 1).val < 64 := (i 1).isLt
  have hi2 : (i 2).val < 1 := (i 2).isLt
  have hlt : 8 * (i 0).val + 7 < cfg0.N := by omega
  have ht : (⟨8 * (i 0).val + 7, hlt⟩ : Fin cfg0.N).val = 8 * (i 0).val + 7 := rfl
  obtain ⟨e0, e1, e2⟩ := pos2 ⟨8 * (i 0).val + 7, hlt⟩
  refine ⟨⟨8 * (i 0).val + 7, hlt⟩, (flush0_2 _).mpr (by rw [ht]; omega), ?_⟩
  rw [mem_blk2]
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    rw [e0, ht]; omega
  | ⟨1, _⟩ =>
    show win0_2.index ⟨8 * (i 0).val + 7, hlt⟩ (1 : Fin 3) * 64 ≤ (i 1).val
      ∧ (i 1).val < win0_2.index ⟨8 * (i 0).val + 7, hlt⟩ (1 : Fin 3) * 64 + 64
    rw [e1]; omega
  | ⟨2, _⟩ =>
    show win0_2.index ⟨8 * (i 0).val + 7, hlt⟩ (2 : Fin 3) * 1 ≤ (i 2).val
      ∧ (i 2).val < win0_2.index ⟨8 * (i 0).val + 7, hlt⟩ (2 : Fin 3) * 1 + 1
    rw [e2]; omega

/-- The second result after the whole pass: the array of the two halves of the squared norms. -/
theorem final2 (m : (ℓ : Loc nD τ sig) → Buf (Elt Ideal) ℓ) (c : Dev nD) (X : Mat)
    (hinv : ∀ t : Fin cfg0.N, t.val % 8 = 7 → ∀ (u : Fin 1) (p : Fin 64) (w : Fin 1),
      (outsAt0 m c t.val t.isLt).2 (ValueIdx.ix3 u p w) = half X p p (t.val / 8)) :
    (dats m 0 c).arrAt 2 cfg0.N = G2 X :=
  (dats m 0 c).arrAt_eq_of_cover 2 (G2 X) (fun t hf => flushed2_eq m c X hinv t hf) cover2

end PairCos.Blocks

end
-- ==== Proof.Tail.lean ====
/-
  The host operations that follow the region, read as one function of the region's two output arrays.
  The first array holds, for each half of the columns, the 64 × 64 table of inner products of the rows over
  that half; the second, for each half, the column of the rows' sums of squares over that half. The
  operations add the two halves (from zero), take the root of each sum of squares and clamp it from below,
  form the 64 × 64 table of products of two clamped norms (the column spread along the rows times its
  transpose spread along the columns), divide the table of inner products by it entry by entry, keep the
  entries strictly above the diagonal (column number greater than row number, compared as 32-bit signed
  numbers below 64) and put zero elsewhere, add up the whole table (from zero) and divide by the number of
  pairs. Read at its one index, the result is the mean over the pairs p < q of the quotient formed from the
  two arrays.
-/
import proofs.«160796_j42460046688731_2_alg».proof.Proof.Spec
import proofs.«160796_j42460046688731_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace PairCos.Tail

open Cert.KernelIdeal Cert.KernelIdeal.Gen Idealize.ShloMosaic

/-! ## The operations, stage by stage -/

/-- The scalar zero the sums start from. -/
def zeroS : FVec Ideal S_ .f32 := constant (F := Ideal) S_ .f32 0x00000000#32

/-- The table of raw inner products: the two halves' tables added up, from zero. -/
def raw (A1 : FVec Ideal S2x64x64 .f32) : FVec Ideal S64x64 .f32 :=
  Host.reduceAdd (F := Ideal) A1 zeroS reducesTo_S2x64x64_S64x64_d0 h_S_

/-- The column of sums of squares: the two halves' columns added up, from zero. -/
def sq (A2 : FVec Ideal S2x64x1 .f32) : FVec Ideal S64x1 .f32 :=
  Host.reduceAdd (F := Ideal) A2 zeroS reducesTo_S2x64x1_S64x1_d0 h_S_

/-- The column of clamped norms: the root of the sum of squares, or the clamp if that is larger. -/
def nrm (A2 : FVec Ideal S2x64x1 .f32) : FVec Ideal S64x1 .f32 :=
  maximumf (F := Ideal) (Host.sqrt (F := Ideal) (sq A2))
    (broadcastInDim S64x1 ![] bcast_S_S64x1 (constant (F := Ideal) S_ .f32 0x322BCC77#32))

/-- The table of products of two norms: the column spread along the rows times its transpose spread along the columns. -/
def den (A2 : FVec Ideal S2x64x1 .f32) : FVec Ideal S64x64 .f32 :=
  mulf (F := Ideal) (broadcastInDim S64x64 ![0, 1] bcast_S64x1_S64x64_0_1 (nrm A2))
    (broadcastInDim S64x64 ![0, 1] bcast_S1x64_S64x64_0_1 (transpose S1x64 [1, 0] (nrm A2) transposes_S64x1_S1x64_1_0))

/-- The table of cosines: each raw inner product over the product of the two norms. -/
def quo (A1 : FVec Ideal S2x64x64 .f32) (A2 : FVec Ideal S2x64x1 .f32) : FVec Ideal S64x64 .f32 :=
  Host.divf (F := Ideal) (raw A1) (den A2)

/-- The table whose entry (p, q) is the column number q. -/
def cols : IVec S64x64 32 :=
  broadcastInDim S64x64 ![0, 1] bcast_S1x64_S64x64_0_1 (broadcastInDim S1x64 ![1] bcast_S64_S1x64_1 (iotaInDim S64 32 0))

/-- The table whose entry (p, q) is the row number p. -/
def rows : IVec S64x64 32 :=
  broadcastInDim S64x64 ![0, 1] bcast_S64x1_S64x64_0_1 (broadcastInDim S64x1 ![0] bcast_S64_S64x1_0 (iotaInDim S64 32 0))

/-- The mask of the strictly upper triangle: column number greater than row number. -/
def mask : IVec S64x64 1 := cmpi .sgt cols rows

/-- The cosines on the strictly upper triangle, zero elsewhere. -/
def upper (A1 : FVec Ideal S2x64x64 .f32) (A2 : FVec Ideal S2x64x1 .f32) : FVec Ideal S64x64 .f32 :=
  select mask (quo A1 A2) (broadcastInDim S64x64 ![] bcast_S_S64x64 (id zeroS))

/-- Their sum, from zero. -/
def total (A1 : FVec Ideal S2x64x64 .f32) (A2 : FVec Ideal S2x64x1 .f32) : FVec Ideal S_ .f32 :=
  Host.reduceAdd (F := Ideal) (upper A1 A2) zeroS reducesTo_S64x64_S_d0_1 h_S_

/-- The mean: the sum over the number of pairs. -/
def T (A1 : FVec Ideal S2x64x64 .f32) (A2 : FVec Ideal S2x64x1 .f32) : FVec Ideal S_ .f32 :=
  Host.divf (F := Ideal) (total A1 A2) (constant (F := Ideal) S_ .f32 0x44FC0000#32)

/-! ## The returned buffer is that function of the two arrays -/

set_option maxHeartbeats 2000000 in
/-- The buffer the program returns holds, after the host operations that follow the region, `T` of what the region
    left in its two output arrays: each operation's result is its function of its operands' results. -/
theorem tail_struct0 (m : (ℓ : Loc nD τ sig) → Buf (Elt Ideal) ℓ) (c : Dev nD) :
    Pipeline.afterTail₀ cfgs (dats m) 0 (V0 m) [hostOps1, hostOps1_1, hostOps1_2] c main_v20
      = T (Pipeline.withArrays (cfgs 0).spec c (V0 m c) (fun w => (dats m 0 c).arrAt w (cfgs 0).N) (Proc.devRef .tc main_v0_0))
          (Pipeline.withArrays (cfgs 0).spec c (V0 m c) (fun w => (dats m 0 c).arrAt w (cfgs 0).N) (Proc.devRef .tc main_v0_1)) := by
  unfold Pipeline.afterTail₀
  simp only [hostOps1, hostOps1_1, hostOps1_2, List.flatten_cons, List.flatten_nil, List.append_nil, List.cons_append, List.nil_append]
  after_results
  rfl

set_option maxHeartbeats 1000000 in
/-- The same with the two arrays named. -/
theorem tail_struct (m : (ℓ : Loc nD τ sig) → Buf (Elt Ideal) ℓ) (c : Dev nD)
    (A1 : FVec Ideal S2x64x64 .f32) (A2 : FVec Ideal S2x64x1 .f32)
    (h1 : (dats m 0 c).arrAt 1 cfg0.N = A1) (h2 : (dats m 0 c).arrAt 2 cfg0.N = A2) :
    Pipeline.afterTail₀ cfgs (dats m) 0 (V0 m) [hostOps1, hostOps1_1, hostOps1_2] c main_v20 = T A1 A2 :=
  (tail_struct0 m c).trans (congrArg₂ T
    ((Pipeline.withArrays_arr spec0 launch0.win.arr_inj c _ _ 1).trans h1)
    ((Pipeline.withArrays_arr spec0 launch0.win.arr_inj c _ _ 2).trans h2))

/-- The returned buffer is unscoped and is no window's array. -/
theorem v20_rest : main_v20 ∈ Pipeline.restRefs sig (cfgs 0).spec := by decide

/-! ## The stages read at an index -/

/-- The raw table at (p, q): zero plus the two halves' entries. -/
theorem raw_at (A1 : FVec Ideal S2x64x64 .f32) (p q : Fin 64) :
    raw A1 (ValueIdx.ix2 p q) = PairCos.zero + ∑ b : Fin 2, A1 (ValueIdx.ix3 b p q) := by
  unfold raw
  simp only [Host.reduceAdd, Ideal.hostReduceAdd_def]
  rw [Ideal.hostReduceAdd_single reducesTo_S2x64x64_S64x64_d0 (by decide)]
  refine congrArg (_ + ·) (Finset.sum_congr rfl fun k _ => ?_)
  exact congrArg A1 (funext fun a => Fin.ext (by match a with | ⟨0, _⟩ => rfl | ⟨1, _⟩ => rfl | ⟨2, _⟩ => rfl))

/-- The sums of squares at row p: zero plus the two halves' entries. -/
theorem sq_at (A2 : FVec Ideal S2x64x1 .f32) (p : Fin 64) :
    sq A2 (ValueIdx.ix2 p 0) = PairCos.zero + ∑ b : Fin 2, A2 (ValueIdx.ix3 b p 0) := by
  unfold sq
  simp only [Host.reduceAdd, Ideal.hostReduceAdd_def]
  rw [Ideal.hostReduceAdd_single reducesTo_S2x64x1_S64x1_d0 (by decide)]
  refine congrArg (_ + ·) (Finset.sum_congr rfl fun k _ => ?_)
  exact congrArg A2 (funext fun a => Fin.ext (by match a with | ⟨0, _⟩ => rfl | ⟨1, _⟩ => rfl | ⟨2, _⟩ => rfl))

/-- The clamped norm of row p. -/
theorem nrm_at (A2 : FVec Ideal S2x64x1 .f32) (p : Fin 64) :
    nrm A2 (ValueIdx.ix2 p 0)
      = max (Ideal.sqrt (PairCos.zero + ∑ b : Fin 2, A2 (ValueIdx.ix3 b p 0))) PairCos.eps := by
  show max (Ideal.sqrt (sq A2 (ValueIdx.ix2 p 0))) PairCos.eps = _
  rw [sq_at]

/-- The product table at (p, q): the norm of row p times the norm of row q. -/
theorem den_at (A2 : FVec Ideal S2x64x1 .f32) (p q : Fin 64) :
    den A2 (ValueIdx.ix2 p q) = nrm A2 (ValueIdx.ix2 p 0) * nrm A2 (ValueIdx.ix2 q 0) := by
  unfold den
  generalize nrm A2 = y
  have e1 : broadcastInDim S64x64 ![0, 1] bcast_S64x1_S64x64_0_1 y (ValueIdx.ix2 p q) = y (ValueIdx.ix2 p 0) :=
    broadcastInDim_apply _ bcast_S64x1_S64x64_0_1 y (ValueIdx.ix2 p q) (ValueIdx.ix2 p 0) (fun a => match a with
      | ⟨0, _⟩ => by show p.val = if (64 : Nat) = 1 then 0 else p.val; rw [if_neg (by decide)]
      | ⟨1, _⟩ => by show 0 = if (1 : Nat) = 1 then 0 else q.val; rw [if_pos rfl])
  have e2 : broadcastInDim S64x64 ![0, 1] bcast_S1x64_S64x64_0_1 (transpose S1x64 [1, 0] y transposes_S64x1_S1x64_1_0) (ValueIdx.ix2 p q)
      = transpose S1x64 [1, 0] y transposes_S64x1_S1x64_1_0 (ValueIdx.ix2 0 q) :=
    broadcastInDim_apply _ bcast_S1x64_S64x64_0_1 _ (ValueIdx.ix2 p q) (ValueIdx.ix2 0 q) (fun a => match a with
      | ⟨0, _⟩ => by show 0 = if (1 : Nat) = 1 then 0 else p.val; rw [if_pos rfl]
      | ⟨1, _⟩ => by show q.val = if (64 : Nat) = 1 then 0 else q.val; rw [if_neg (by decide)])
  have e3 : transpose S1x64 [1, 0] y transposes_S64x1_S1x64_1_0 (ValueIdx.ix2 0 q) = y (ValueIdx.ix2 q 0) :=
    transpose_apply [1, 0] y transposes_S64x1_S1x64_1_0 (ValueIdx.ix2 0 q) (ValueIdx.ix2 q 0) (fun b => match b with
      | ⟨0, _⟩ => rfl
      | ⟨1, _⟩ => rfl)
  exact congrArg₂ (· * ·) e1 (e2.trans e3)

/-- The column-number table at (p, q) is q. -/
theorem cols_at (p q : Fin 64) : cols (ValueIdx.ix2 p q) = BitVec.ofNat 32 q.val := rfl

/-- The row-number table at (p, q) is p. -/
theorem rows_at (p q : Fin 64) : rows (ValueIdx.ix2 p q) = BitVec.ofNat 32 p.val := rfl

/-- As 32-bit signed numbers, q exceeds p exactly when it does as a natural number: both are below 64. -/
theorem mask_iff : ∀ p q : Fin 64,
    IntOp.cmpi .sgt (BitVec.ofNat 32 q.val) (BitVec.ofNat 32 p.val) = 1 ↔ p.val < q.val := by decide +kernel

/-- The cosine at (p, q) in terms of the two arrays. -/
theorem quo_at (A1 : FVec Ideal S2x64x64 .f32) (A2 : FVec Ideal S2x64x1 .f32) (p q : Fin 64) :
    quo A1 A2 (ValueIdx.ix2 p q)
      = Ideal.div (PairCos.zero + ∑ b : Fin 2, A1 (ValueIdx.ix3 b p q))
          (max (Ideal.sqrt (PairCos.zero + ∑ b : Fin 2, A2 (ValueIdx.ix3 b p 0))) PairCos.eps
            * max (Ideal.sqrt (PairCos.zero + ∑ b : Fin 2, A2 (ValueIdx.ix3 b q 0))) PairCos.eps) := by
  show Ideal.div (raw A1 (ValueIdx.ix2 p q)) (den A2 (ValueIdx.ix2 p q)) = _
  rw [raw_at, den_at, nrm_at, nrm_at]

/-- The masked table at (p, q): the cosine above the diagonal, zero on and below it. -/
theorem upper_at (A1 : FVec Ideal S2x64x64 .f32) (A2 : FVec Ideal S2x64x1 .f32) (p q : Fin 64) :
    upper A1 A2 (ValueIdx.ix2 p q) = if p.val < q.val then quo A1 A2 (ValueIdx.ix2 p q) else PairCos.zero := by
  show Scalar.select (IntOp.cmpi .sgt (cols (ValueIdx.ix2 p q)) (rows (ValueIdx.ix2 p q))) (quo A1 A2 (ValueIdx.ix2 p q)) PairCos.zero = _
  rw [cols_at, rows_at]
  unfold Scalar.select
  by_cases h : p.val < q.val
  · rw [if_pos h, if_pos ((mask_iff p q).mpr h)]
  · rw [if_neg h, if_neg (fun e => h ((mask_iff p q).mp e))]

/-- The total at its one index: zero plus the masked table summed over rows and columns. -/
theorem total_at (A1 : FVec Ideal S2x64x64 .f32) (A2 : FVec Ideal S2x64x1 .f32) (i : S_.Idx) :
    total A1 A2 i = PairCos.zero + ∑ p : Fin 64, ∑ q : Fin 64, upper A1 A2 (ValueIdx.ix2 p q) := by
  unfold total
  generalize upper A1 A2 = y0
  simp only [Host.reduceAdd, Ideal.hostReduceAdd_def]
  rw [Ideal.hostReduceAdd_total reducesTo_S64x64_S_d0_1 (fun b => b.elim0) y0 _ i, ValueIdx.sum_idx2]
  rfl

/-- The host operations after the region compute the mean, over the pairs p < q, of the cosine formed from the two arrays. -/
theorem T_eq (A1 : FVec Ideal S2x64x64 .f32) (A2 : FVec Ideal S2x64x1 .f32) :
    T A1 A2 = fun _ => PairCos.loss (fun p q =>
      Ideal.div (PairCos.zero + ∑ b : Fin 2, A1 (ValueIdx.ix3 b p q))
        (max (Ideal.sqrt (PairCos.zero + ∑ b : Fin 2, A2 (ValueIdx.ix3 b p 0))) PairCos.eps
          * max (Ideal.sqrt (PairCos.zero + ∑ b : Fin 2, A2 (ValueIdx.ix3 b q 0))) PairCos.eps)) := by
  funext i
  show Ideal.div (total A1 A2 i) PairCos.cnt = _
  unfold PairCos.loss
  rw [total_at]
  refine congrArg (fun s => Ideal.div (PairCos.zero + s) PairCos.cnt)
    (Finset.sum_congr rfl fun p _ => Finset.sum_congr rfl fun q _ => ?_)
  rw [upper_at, quo_at]

/-! ## The value of the returned buffer -/

set_option maxHeartbeats 1000000 in
/-- After the host operations that follow the region, the returned buffer holds the mean over the pairs p < q of
    the inner product (the two halves added, from zero) over the product of the two clamped norms (each the root of
    the two halves' sums of squares added, from zero, or the clamp if that is larger). -/
theorem tail_value (m : (ℓ : Loc nD τ sig) → Buf (Elt Ideal) ℓ) (c : Dev nD)
    (A1 : (⟨3, ![2, 64, 64]⟩ : Shape).Idx → EReal) (A2 : (⟨3, ![2, 64, 1]⟩ : Shape).Idx → EReal)
    (h1 : (dats m 0 c).arrAt 1 cfg0.N = A1) (h2 : (dats m 0 c).arrAt 2 cfg0.N = A2) :
    Pipeline.afterTail₀ cfgs (dats m) 0 (V0 m) [hostOps1, hostOps1_1, hostOps1_2] c main_v20
      = fun _ => PairCos.loss (fun p q =>
          Ideal.div (PairCos.zero + ∑ b : Fin 2, A1 (ValueIdx.ix3 b p q))
            (max (Ideal.sqrt (PairCos.zero + ∑ b : Fin 2, A2 (ValueIdx.ix3 b p 0))) PairCos.eps
              * max (Ideal.sqrt (PairCos.zero + ∑ b : Fin 2, A2 (ValueIdx.ix3 b q 0))) PairCos.eps)) :=
  (tail_struct m c A1 A2 h1 h2).trans (T_eq A1 A2)

end PairCos.Tail

end
-- ==== Proof.Algebra.lean ====
/-
  The algebra behind the mean pairwise cosine, over the extended reals.
  Three facts. The constant zero is the extended real 0. When every entry of the matrix is real, the
  quotient of the inner product by the product of the two clamped norms equals the inner product of the
  two rows each divided by its own clamped norm: every clamped norm is then a positive real, so each
  division is a product with a real reciprocal, and the reciprocal of a product distributes over a
  finite sum of reals. And the inner product over all 1048576 columns is the sum of its two halves,
  each half eight tiles of 65536 columns, each tile eight chunks of 8192 columns: a regrouping of a
  finite sum in a commutative additive monoid, which needs no finiteness of the entries.
-/
import proofs.«160796_j42460046688731_2_alg».proof.Proof.Spec

noncomputable section

namespace PairCos

open Idealize.ShloMosaic

/-- The constant zero is the extended real 0. -/
theorem zero_eq : zero = 0 := Ideal.ofBits_zero_f32

/-! Auxiliary facts, kept in a namespace of their own. -/
namespace Algebra

/-- The clamp is a positive real: its pattern has sign 0, exponent field 100 and significand field
    2870391, so it denotes (2^23 + 2870391) * 2^(100 - 127 - 23) = 11258999 * 2^(-50). -/
theorem eps_pos : ∃ e : ℝ, 0 < e ∧ eps = (e : EReal) := by
  refine ⟨11258999 * (2 : ℝ) ^ (-50 : ℤ), by positivity, ?_⟩
  unfold eps
  simp [Ideal.ofBits, Ideal.ieee, -EReal.coe_mul]

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the maximum (it is monotone). -/
theorem coe_max (a b : ℝ) : ((max a b : ℝ) : EReal) = max (a : EReal) (b : EReal) :=
  EReal.coe_strictMono.monotone.map_max

/-- A sum over `a` consecutive blocks of `b` consecutive indices is the sum over the first `a * b`
    indices. -/
theorem sum_range_mul {M : Type*} [AddCommMonoid M] (f : ℕ → M) (a b : ℕ) :
    ∑ i ∈ Finset.range a, ∑ j ∈ Finset.range b, f (b * i + j) = ∑ n ∈ Finset.range (a * b), f n := by
  induction a with
  | zero => simp
  | succ a ih =>
    rw [Finset.sum_range_succ, ih, Nat.succ_mul, Finset.sum_range_add, Nat.mul_comm b a]

end Algebra

open Algebra

/-- With every entry real, the quotient form and the normalized-rows form of the cosine agree. -/
theorem cos_eq (X : Mat) (hfin : ∀ i, ∃ r : ℝ, X i = (r : EReal)) (p q : Fin 64) :
    cosQ X p q = cosN X p q := by
  choose x hx using hfin
  -- every entry is the coercion of a real
  have hent : ∀ (p : Fin 64) (n : Fin 1048576), ent X p n = ((x (ValueIdx.ix2 p n) : ℝ) : EReal) :=
    fun p n => hx _
  -- so every inner product is the coercion of the real inner product
  have hdot : ∀ p q : Fin 64, dot X p q
      = ((∑ n : Fin 1048576, x (ValueIdx.ix2 p n) * x (ValueIdx.ix2 q n) : ℝ) : EReal) := by
    intro p q
    unfold dot
    rw [coe_sum]
    refine Finset.sum_congr rfl (fun n _ => ?_)
    rw [hent, hent, EReal.coe_mul]
  -- and every clamped norm is a positive real: it is at least the clamp
  have hnorm : ∀ p : Fin 64, ∃ a : ℝ, 0 < a ∧ norm X p = (a : EReal) := by
    intro p
    obtain ⟨e, he, heq⟩ := eps_pos
    unfold norm
    rw [zero_eq, zero_add, hdot, Ideal.sqrt_coe, heq]
    split_ifs with h
    · exact ⟨e, he, max_eq_right bot_le⟩
    · exact ⟨max (Real.sqrt _) e, lt_max_of_lt_right he, (coe_max _ _).symm⟩
  obtain ⟨a, ha, hna⟩ := hnorm p
  obtain ⟨b, hb, hnb⟩ := hnorm q
  -- each factor of the normalized form is a real
  have hterm : ∀ n : Fin 1048576,
      Ideal.div (ent X p n) (a : EReal) * Ideal.div (ent X q n) (b : EReal)
        = (((x (ValueIdx.ix2 p n) * (1 / a)) * (x (ValueIdx.ix2 q n) * (1 / b)) : ℝ) : EReal) := by
    intro n
    rw [Ideal.div_coe ha.ne', Ideal.div_coe hb.ne', hent, hent,
      ← EReal.coe_mul, ← EReal.coe_mul, ← EReal.coe_mul]
  unfold cosQ cosN
  rw [hna, hnb, zero_eq, zero_add, hdot, ← EReal.coe_mul, Ideal.div_coe (mul_pos ha hb).ne',
    ← EReal.coe_mul, Finset.sum_congr rfl (fun n _ => hterm n), ← coe_sum]
  rw [EReal.coe_eq_coe_iff]
  -- in the reals: the reciprocal of the product of the norms distributes over the sum
  rw [Finset.sum_mul]
  refine Finset.sum_congr rfl (fun n _ => ?_)
  rw [one_div, one_div, one_div, mul_inv]
  ring

/-- The inner product is the sum of its two halves. -/
theorem dot_eq_halves (X : Mat) (p q : Fin 64) : ∑ b : Fin 2, half X p q b.val = dot X p q := by
  -- the summand at a natural column
  set g : ℕ → EReal := fun n => entN X p n * entN X q n with hg
  -- a chunk is 8192 consecutive columns
  have hchunk : ∀ t k : ℕ, chunk X p q t k
      = ∑ l ∈ Finset.range 8192, g (65536 * t + (8192 * k + l)) := by
    intro t k
    unfold chunk col
    rw [Finset.sum_range (fun l => g (65536 * t + (8192 * k + l)))]
    refine Finset.sum_congr rfl (fun l _ => ?_)
    simp only [hg, Nat.add_assoc]
  -- a tile is 65536 consecutive columns
  have htile : ∀ t : ℕ, tile X p q t = ∑ m ∈ Finset.range 65536, g (65536 * t + m) := by
    intro t
    unfold tile
    rw [Finset.sum_congr rfl (fun k _ => hchunk t k),
      sum_range_mul (fun m => g (65536 * t + m)) 8 8192]
  -- the two halves together are the sixteen tiles
  have hhalves : ∑ b : Fin 2, half X p q b.val = ∑ t ∈ Finset.range 16, tile X p q t := by
    rw [← Finset.sum_range (fun b => half X p q b)]
    unfold half
    rw [sum_range_mul (fun t => tile X p q t) 2 8]
  rw [hhalves, Finset.sum_congr rfl (fun t _ => htile t), sum_range_mul g 16 65536,
    Finset.sum_range g]
  unfold dot
  refine Finset.sum_congr rfl (fun n _ => ?_)
  simp only [hg, entN, dif_pos n.isLt, Fin.eta]

end PairCos

end
-- ==== Proof.KernelRun.lean ====
import proofs.«160796_j42460046688731_2_alg».proof.Proof.Grid
import proofs.«160796_j42460046688731_2_alg».proof.Proof.Blocks
import proofs.«160796_j42460046688731_2_alg».proof.Proof.Tail
import proofs.«160796_j42460046688731_2_alg».proof.Proof.Algebra

set_option maxRecDepth 16384

noncomputable section

open Idealize.ShloMosaic Idealize.ShloMosaic.TcCoe Idealize.SL.Sem
open Idealize.ShloMosaic.Pipeline (Dat)

/-!
  The kernel's result. The two arrays the region leaves hold, per half, the half's share of every inner product and
  of every row's sum of squares; the lines after the region add the two halves (the whole inner products), clamp the
  roots of the sums of squares into norms, divide each inner product by the product of its two norms, and average the
  strictly upper triangle: the mean pairwise cosine in its quotient arrangement.
-/

namespace PairCos.KernelRun

open Cert.KernelIdeal Cert.KernelIdeal.Gen ValueIdx PairCos

variable (m : (ℓ : Loc nD τ sig) → Buf (Elt Ideal) ℓ) (ρ : Dev nD → PrngReg)

/-- The Gram output array after the region: half by half, the half's share of each inner product. -/
theorem arr1 (c : Dev nD) : (dats m 0 c).arrAt 1 cfg0.N = Blocks.G1 (Grid.Xof m c) :=
  Blocks.final1 m c (Grid.Xof m c) (fun t ht u p q => Grid.held_last1 m c t ht u p q)

/-- The sums-of-squares output array after the region. -/
theorem arr2 (c : Dev nD) : (dats m 0 c).arrAt 2 cfg0.N = Blocks.G2 (Grid.Xof m c) :=
  Blocks.final2 m c (Grid.Xof m c) (fun t ht u p w => Grid.held_last2 m c t ht u p w)

/-- The result buffer after the whole program: the mean over p < q of the quotient cosine. -/
theorem value (c : Dev nD) :
    Pipeline.afterTail₀ cfgs (dats m) 0 (V0 m) [hostOps1, hostOps1_1, hostOps1_2] c main_v20
      = fun _ => loss (cosQ (Grid.Xof m c)) := by
  refine (Tail.tail_value m c _ _ (arr1 m c) (arr2 m c)).trans ?_
  refine congrArg (fun C : Fin 64 → Fin 64 → EReal => fun _ => loss C) (funext fun p => funext fun q => ?_)
  simp only [Blocks.G1_ix3, Blocks.G2_ix3, dot_eq_halves]
  rfl

/-- The run: every weakly fair execution ends with the result buffer at that mean and the argument unchanged. -/
theorem run : θ_run defs (onTc (τ := τ) (main (F := Ideal))) ⟨m, fun _ => 0, ρ⟩ (fun r => ∀ c : Dev nD,
    r.2.mem ((c.tc : Thread nD τ).loc main_v20) = (fun _ => loss (cosQ (Grid.Xof m c)))
    ∧ r.2.mem ((c.tc : Thread nD τ).loc main_arg0) = m ((c.tc : Thread nD τ).loc main_arg0)) :=
  (θ_run defs _ _).mono (fun r h c =>
    ⟨((h c).2 main_v20 Tail.v20_rest).trans (value m c),
     ((h c).1 0).trans (((dats m 0 c).arrAt_in 0 rfl _).trans ((A_eq m c 0).trans (V_main_arg0 m c)))⟩)
    (run_main m ρ)

end PairCos.KernelRun

end
-- ==== Proof.lean ====
/-
  The certificate's claims. Both programs compute the mean, over the 2016 unordered pairs of the 64 rows of a
  64 × 1048576 matrix, of the cosine of the two rows, each row norm clamped from below by a small positive constant.
  The reference divides every row by its clamped norm and takes the inner products of the normalized rows. The kernel
  streams the matrix once, accumulating the raw inner products and the rows' sums of squares over two halves of eight
  tiles of eight chunks, and divides each inner product by the product of the two clamped norms afterwards. The two
  agree where every entry is a real number: then each clamped norm is a positive real, and a quotient by a nonzero
  real distributes over a finite sum of reals; regrouping the sum by halves, tiles and chunks needs nothing, the
  extended reals being a commutative monoid under addition. The precondition (every entry finite) is used exactly there.
  Both masks keep the entries with row index below column index. The kernel's idealization rewrote nothing.
-/
import proofs.«160796_j42460046688731_2_alg».proof.Defs
import proofs.«160796_j42460046688731_2_alg».proof.Proof.Gen.Kernel
import proofs.«160796_j42460046688731_2_alg».proof.Proof.Gen.Kernel.Skeleton
import proofs.«160796_j42460046688731_2_alg».proof.Proof.Gen.Kernel.Loops
import proofs.«160796_j42460046688731_2_alg».proof.Proof.Gen.Kernel.Launch
import proofs.«160796_j42460046688731_2_alg».proof.Proof.Gen.Kernel.Points
import proofs.«160796_j42460046688731_2_alg».proof.Proof.Gen.Kernel.Frame
import proofs.«160796_j42460046688731_2_alg».proof.Proof.Gen.KernelIdeal
import proofs.«160796_j42460046688731_2_alg».proof.Proof.Gen.KernelIdeal.Skeleton
import proofs.«160796_j42460046688731_2_alg».proof.Proof.Gen.KernelIdeal.Loops
import proofs.«160796_j42460046688731_2_alg».proof.Proof.Gen.KernelIdeal.Launch
import proofs.«160796_j42460046688731_2_alg».proof.Proof.Gen.KernelIdeal.Points
import proofs.«160796_j42460046688731_2_alg».proof.Proof.Gen.KernelIdeal.Frame
import proofs.«160796_j42460046688731_2_alg».proof.Proof.Gen.ReferenceIdeal
import proofs.«160796_j42460046688731_2_alg».proof.Proof.Gen.Pre_finite_inputs
import proofs.«160796_j42460046688731_2_alg».proof.Proof.Gen.ReferenceIdeal.Run
import proofs.«160796_j42460046688731_2_alg».proof.Proof.Gen.ReferenceIdeal.Read
import proofs.«160796_j42460046688731_2_alg».proof.Proof.RefRun
import proofs.«160796_j42460046688731_2_alg».proof.Proof.KernelRun
import Idealize.ShloMosaic.Adequacy
import Idealize.ShloMosaic.Init

noncomputable section

namespace Cert.Proof

open Idealize.ShloMosaic Idealize.ShloMosaic.TcCoe Idealize.SL.Sem Cert.Kernel

/-- The two programs end with equal results: the kernel's mean of quotient cosines is the reference's mean of
    normalized inner products, entry by entry of the table, every entry of the matrix being real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => PairCos.loss (PairCos.cosQ (PairCos.Grid.Xof m c)), PairCos.KernelRun.run m ρ, ?_⟩
  refine (θ_run Cert.ReferenceIdeal.defs _ _).mono (fun _ h c => ⟨((h c).1).trans ?_, (h c).2⟩) (PairCos.RefRun.ref_run m' ρ')
  rw [hagree c]
  refine congrArg (fun C : Fin 64 → Fin 64 → EReal => fun _ => PairCos.loss C) (funext fun p => funext fun q => ?_)
  exact (PairCos.cos_eq _ (PairCos.RefRun.finite_kernel m hpre c) p q).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  PairCos.RefRun.frame_ref,
  trivial,
  algebraic⟩

end Cert.Proof

end
